-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8192x4096 .f32) (main_arg1 : FVec F S16x4096 .f32) (main_arg2 : FVec F S4096x16 .f32) (main_arg3 : FVec F S4096x4096 .f32) (main_arg4 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S4096x16 .f32 := Host.absf main_arg2
  let main_cst_2 : FVec F S_ .f32 := constant S_ .f32 0x7F800000#32
  let main_v10 : FVec F S4096x16 .f32 := broadcastInDim S4096x16 ![] bcast_S_S4096x16 main_cst_2
  let main_v11 : IVec S4096x16 1 := cmpf .olt main_v9 main_v10
  let main_c_3 : IVec S_ 1 := constantI S_ 1 1#1
  let main_v12 : IVec S_ 1 := (fun x v => Host.reduce IntOp.andi x v reducesTo_S4096x16_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S4096 : Shape := ⟨1, ![4096]⟩
abbrev S4096x1 : Shape := ⟨2, ![4096, 1]⟩
abbrev S1x4096 : Shape := ⟨2, ![1, 4096]⟩
abbrev S256x4096 : Shape := ⟨2, ![256, 4096]⟩
abbrev S256x16 : Shape := ⟨2, ![256, 16]⟩
abbrev S256x1 : Shape := ⟨2, ![256, 1]⟩
abbrev S1x256 : Shape := ⟨2, ![1, 256]⟩
abbrev S256 : Shape := ⟨1, ![256]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩
abbrev S512x1024 : Shape := ⟨2, ![512, 1024]⟩
abbrev S512x16 : Shape := ⟨2, ![512, 16]⟩
abbrev S16x1024 : Shape := ⟨2, ![16, 1024]⟩

abbrev nBuf : Space → Nat
  | .hbm => 10
  | .vmem => 25
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S4096x4096, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .bf16⟩
  | .hbm, ⟨8, _⟩ => ⟨S8192x4096, .bf16⟩
  | .hbm, ⟨9, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x16, .f32⟩
  | .local _ .vmem, ⟨3, _⟩ => ⟨S256x16, .f32⟩
  | .local _ .vmem, ⟨4, _⟩ => ⟨S16x4096, .f32⟩
  | .local _ .vmem, ⟨5, _⟩ => ⟨S256x1, .f32⟩
  | .local _ .vmem, ⟨6, _⟩ => ⟨S256x1, .f32⟩
  | .local _ .vmem, ⟨7, _⟩ => ⟨S1x256, .f32⟩
  | .local _ .vmem, ⟨8, _⟩ => ⟨S1x256, .f32⟩
  | .local _ .vmem, ⟨9, _⟩ => ⟨S256x4096, .bf16⟩
  | .local _ .vmem, ⟨10, _⟩ => ⟨S256x4096, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S16x512, .f32⟩
  | .local _ .vmem, ⟨16, _⟩ => ⟨S16x512, .f32⟩
  | .local _ .vmem, ⟨17, _⟩ => ⟨S1024x16, .f32⟩
  | .local _ .vmem, ⟨18, _⟩ => ⟨S1024x16, .f32⟩
  | .local _ .vmem, ⟨19, _⟩ => ⟨S1x1024, .f32⟩
  | .local _ .vmem, ⟨20, _⟩ => ⟨S1x1024, .f32⟩
  | .local _ .vmem, ⟨21, _⟩ => ⟨S1024x1024, .f32⟩
  | .local _ .vmem, ⟨22, _⟩ => ⟨S1024x1024, .f32⟩
  | .local _ .vmem, ⟨23, _⟩ => ⟨S1024x1024, .f32⟩
  | .local _ .vmem, ⟨24, _⟩ => ⟨S1024x16, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 4, 8], ![false, false, false]⟩

def k1_cond2 (i : grid1.Coords) : BitVec 1 :=
  let arg2 : BitVec 32 := BitVec.ofNat 32 (i 2).val
  let c7_i32 : BitVec 32 := 7#32
  let v23 : BitVec 1 := Scalar.cmpi .eq arg2 c7_i32
  let v24 : BitVec 32 := Scalar.extui v23
  let c0_i32_15 : BitVec 32 := 0#32
  let v25 : BitVec 1 := Scalar.cmpi .ne v24 c0_i32_15
  v25

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S16x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S4096_S4096x1 : S4096.ShapeCasts S4096x1
  inb_S256x16_S256x16_0_0 : ∀ a, (![0, 0] : Fin 2 → Nat) a + S256x16.size a ≤ S256x16.size a
  h_S256x16 : 0 < S256x16.numel
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S16x512_S16x512_0_0 : ∀ a, (![0, 0] : Fin 2 → Nat) a + S16x512.size a ≤ S16x512.size a
  h_S16x512 : 0 < S16x512.numel
  transposes_S1024x512_p1_0_S512x1024 : S1024x512.Transposes [1, 0] S512x1024
  transposes_S16x512_p1_0_S512x16 : S16x512.Transposes [1, 0] S512x16
  transposes_S1024x16_p1_0_S16x1024 : S1024x16.Transposes [1, 0] S16x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S256x16_S16x4096_S256x4096_1_0_0_1_n_n_wf : DotDims.WF S256x16 S16x4096 S256x4096 [1] [0] [0] [1] [] []
  dot_S1024x512_S512x1024_S1024x1024_1_0_0_1_n_n_wf : DotDims.WF S1024x512 S512x1024 S1024x1024 [1] [0] [0] [1] [] []
  dot_S1024x512_S512x16_S1024x16_1_0_0_1_n_n_wf : DotDims.WF S1024x512 S512x16 S1024x16 [1] [0] [0] [1] [] []
  dot_S1024x16_S16x1024_S1024x1024_1_0_0_1_n_n_wf : DotDims.WF S1024x16 S16x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S4096x16.size a
  hwx0_1 : ∀ i : grid0.Coords, EltTy.bits .f32 = 32 ∨ (Rect.block (s := S4096x16) S256x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .bf16 = 32 ∨ (Rect.block (s := S4096x4096) S256x4096.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .bf16 = 32 ∨ (Rect.block (s := S8192x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S4096x4096.size a
  hwx1_1 : ∀ i : grid1.Coords, EltTy.bits .bf16 = 32 ∨ (Rect.block (s := S4096x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x512.size a ≤ S16x4096.size a
  hwx1_2 : ∀ i : grid1.Coords, EltTy.bits .f32 = 32 ∨ (Rect.block (s := S16x4096) S16x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x16.size a ≤ S4096x16.size a
  hwx1_3 : ∀ i : grid1.Coords, EltTy.bits .f32 = 32 ∨ (Rect.block (s := S4096x16) S1024x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x4096.size a
  hwx1_4 : ∀ i : grid1.Coords, EltTy.bits .f32 = 32 ∨ (Rect.block (s := S1x4096) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x1024.size a ≤ S8192x4096.size a
  hwx1_5 : ∀ i : grid1.Coords, EltTy.bits .f32 = 32 ∨ (Rect.block (s := S8192x4096) S1024x1024.size (cc1_transform_5 i) (hinb1_5 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win0_0 : Pipeline.Window sig grid0 :=
  Pipeline.Window.ofSpec (Memref.whole main_arg3) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S16x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1024x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1x1024.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1024x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16x4096 : Shape := ⟨2, ![16, 4096]⟩
abbrev S4096x16 : Shape := ⟨2, ![4096, 16]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S8192x16 : Shape := ⟨2, ![8192, 16]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16x4096, .f32⟩
  | .hbm, ⟨2, _⟩ => ⟨S4096x16, .f32⟩
  | .hbm, ⟨3, _⟩ => ⟨S4096x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S4096x16, .f32⟩
  | .hbm, ⟨17, _⟩ => ⟨S8192x16, .f32⟩
  | .hbm, ⟨18, _⟩ => ⟨S16x4096, .f32⟩
  | .hbm, ⟨19, _⟩ => ⟨S8192x4096, .f32⟩
  | .hbm, ⟨20, _⟩ => ⟨S4096x4096, .f32⟩
  | .hbm, ⟨21, _⟩ => ⟨S8192x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S4096_S1x4096_1 : S4096.BroadcastsInDim S1x4096 (![1] : Fin 1 → Fin S1x4096.rank)
  transposes_S16x4096_S4096x16_1_0 : S16x4096.Transposes [1, 0] S4096x16
  transposes_S4096x16_S16x4096_1_0 : S4096x16.Transposes [1, 0] S16x4096
  transposes_S4096x4096_S4096x4096_1_0 : S4096x4096.Transposes [1, 0] S4096x4096
  bcast_S_S1x4096 : S_.BroadcastsInDim S1x4096 (![] : Fin 0 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S4096x16_S16x4096_S4096x4096_1_0_0_1_n_n_wf : DotDims.WF S4096x16 S16x4096 S4096x4096 [1] [0] [0] [1] [] []
  dot_S8192x4096_S4096x16_S8192x16_1_0_0_1_n_n_wf : DotDims.WF S8192x4096 S4096x16 S8192x16 [1] [0] [0] [1] [] []
  dot_S8192x16_S16x4096_S8192x4096_1_0_0_1_n_n_wf : DotDims.WF S8192x16 S16x4096 S8192x4096 [1] [0] [0] [1] [] []
  dot_S8192x4096_S4096x4096_S8192x4096_1_0_0_1_n_n_wf : DotDims.WF S8192x4096 S4096x4096 S8192x4096 [1] [0] [0] [1] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S8192x16_S16x4096_S8192x4096_1_0_0_1_n_n : DotDims S8192x16 S16x4096 S8192x4096 where
  lhsContracting := [1]
  rhsContracting := [0]
  lhsNonContracting := [0]
  rhsNonContracting := [1]
  lhsBatch := []
  rhsBatch := []
  wf := dot_S8192x16_S16x4096_S8192x4096_1_0_0_1_n_n_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.NormRegion.lean ====
/-
  The first kernel region (the weight-norm kernel), at any float instance, entered from buffer contents V.

  The grid has 16 points; point t handles rows 256 t … 256 t + 255 of the dense weight. Its inputs are a
  [256, 4096] block of the dense weight, a [256, 16] block of the second low-rank factor, the whole first
  low-rank factor [16, 4096] and a [256, 1] block of the magnitudes; its outputs are a [1, 256] block of the
  scale row and a [256, 4096] block of the narrowed copy of the dense weight. The body reads the four input
  blocks and overwrites both output blocks whole with pure functions of them; nothing is kept between points.
-/
import proofs.«145152_j41712722379292_2_alg».proof.Proof.Gen.KernelIdeal.Launch
import proofs.«145152_j41712722379292_2_alg».proof.Proof.Gen.KernelIdeal.Skeleton
import proofs.«145152_j41712722379292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store goes through the whole block -/

abbrev rW : Rect S256x4096 := Rect.unit (s := S256x4096) ![0, 0] S256x4096.size inb_S256x4096_S256x4096_0_0
abbrev rB : Rect S256x16 := Rect.unit (s := S256x16) ![0, 0] S256x16.size inb_S256x16_S256x16_0_0
abbrev rA : Rect S16x4096 := Rect.unit (s := S16x4096) ![0, 0] S16x4096.size inb_S16x4096_S16x4096_0_0
abbrev rG : Rect S256x1 := Rect.unit (s := S256x1) ![0, 0] S256x1.size inb_S256x1_S256x1_0_0
abbrev rS : Rect S1x256 := Rect.unit (s := S1x256) ![0, 0] S1x256.size inb_S1x256_S1x256_0_0

/-! ## What the body leaves in each output window's buffer -/

/-- The scale block after the body, from the four input blocks (dense-weight block xw, low-rank blocks xb and xa,
    magnitude block xg). -/
def out0_4 (xw : Vec F S256x4096 .f32) (xb : Vec F S256x16 .f32) (xa : Vec F S16x4096 .f32) (xg : Vec F S256x1 .f32) : Vec F S1x256 .f32 :=
  View.canon [⟨rS, k0_pay1 (View.ld xb rB) (View.ld xa rA) (View.ld xw rW) (View.ld xg rG)⟩]

/-- The narrowed copy's block after the body, from the dense-weight block. -/
def out0_5 (xw : Vec F S256x4096 .f32) : Vec F S256x4096 .bf16 :=
  View.canon [⟨rW, k0_pay2 (View.ld xw rW)⟩]

theorem cover0_4 (p0 : Vec F S1x256 .f32) (y : S1x256.Idx) :
    ∃ pc ∈ ([⟨rS, p0⟩] : List (View.Piece (Elt F) S1x256 .f32)), y ∈ pc.1.set :=
  View.cover_of_tiled [⟨rS, p0⟩] S1x256.size (by rfl) y
theorem cover0_5 (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

/-! ## The body's triple -/

set_option maxHeartbeats 2000000 in
/-- On whole staging memrefs, the inputs' at their contents and the outputs' at anything, the body runs to the
    continuation with the inputs as they were and each output at its function of the inputs. -/
theorem sound_kernel0 (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x4096 .bf16) (harg6 : arg6.IsWhole)
    (xw : Vec F S256x4096 .f32) (xb : Vec F S256x16 .f32) (xa : Vec F S16x4096 .f32) (xg : Vec F S256x1 .f32) (K : PUnit → sProp 𝕄) :
    iprop(owns (c : Thread nD τ) arg1 fullShare xw ∗ owns (c : Thread nD τ) arg2 fullShare xb ∗ owns (c : Thread nD τ) arg3 fullShare xa
        ∗ owns (c : Thread nD τ) arg4 fullShare xg ∗ (∃ d, owns (c : Thread nD τ) arg5 fullShare d) ∗ (∃ d, owns (c : Thread nD τ) arg6 fullShare d)
        ∗ (iprop(owns (c : Thread nD τ) arg1 fullShare xw ∗ owns (c : Thread nD τ) arg2 fullShare xb ∗ owns (c : Thread nD τ) arg3 fullShare xa
            ∗ owns (c : Thread nD τ) arg4 fullShare xg ∗ owns (c : Thread nD τ) arg5 fullShare (out0_4 xw xb xa xg)
            ∗ owns (c : Thread nD τ) arg6 fullShare (out0_5 xw)) -∗ K ⟨⟩))
      ⊢ wp frame (wpE (defs₀ (F := F)) Variants.none c none) E (cc0__norm_kernel i arg1 harg1 arg2 harg2 arg3 harg3 arg4 harg4 arg5 harg5 arg6 harg6) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_5 _)

/-! ## The region's proof data -/

/-- The arrays as the region finds them; after the body at point t each input's buffer at its block and each
    output's at its function of the input blocks; nothing kept between points beyond the untouched scoped rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.MainBlocks.lean ====
/-
  The second kernel region (the fused matmul kernel), first part: its blocks, its branch conditions over the grid and
  what it keeps between points.

  The grid is 8 x 4 x 8, the last coordinate k innermost; point (i, j, k) handles rows 1024 i … of the tokens,
  output features 1024 j … and the k-th slice of 512 input features. Two scratch arrays are carried from point to
  point: a [1024, 1024] accumulator of the dense product and a [1024, 16] accumulator of the low-rank projection.
  At k = 0 both are zeroed first; at every point the slice's contributions are added; at k = 7 the output block is
  computed from the two accumulators, the block of the second low-rank factor and the block of the scale row, and
  only there is the output block written back.
-/
import proofs.«145152_j41712722379292_2_alg».proof.Proof.Gen.KernelIdeal.Launch
import proofs.«145152_j41712722379292_2_alg».proof.Proof.Gen.KernelIdeal.Skeleton
import proofs.«145152_j41712722379292_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- The first branch (zero the accumulators) is taken where k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (compute and store the output block) is taken where k = 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from k = 7 the output window is idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The body's accesses: every load and store goes through the whole block -/

abbrev rX : Rect S1024x512 := Rect.unit (s := S1024x512) ![0, 0] S1024x512.size inb_S1024x512_S1024x512_0_0
abbrev rA1 : Rect S16x512 := Rect.unit (s := S16x512) ![0, 0] S16x512.size inb_S16x512_S16x512_0_0
abbrev rB1 : Rect S1024x16 := Rect.unit (s := S1024x16) ![0, 0] S1024x16.size inb_S1024x16_S1024x16_0_0
abbrev rS1 : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

/-- The two carried scratch arrays as memrefs. -/
abbrev scM9 : Memref sig .tc .vmem S1024x1024 .f32 := Memref.whole cc1_scratch0
abbrev scM10 : Memref sig .tc .vmem S1024x16 .f32 := Memref.whole cc1_scratch1

/-- The scoped buffers of the core that are neither staging buffers of this region nor its scratch, each at some
    contents: nothing here reads or writes them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant split: the untouched scoped buffers, the two scratch arrays at some contents, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM9 fullShare d) ∗ (∃ d, owns (c : Thread nD τ) scM10 fullShare d)) ∗ (∃ r, prngReg c r)) := by
  unfold Pipeline.ΦA; rw [scopedRest1_eq]; simp only [scM9, scM10, owns_whole]; try rfl

end Cert.KernelIdeal.Hand

end
-- ==== Proof.MainRuns.lean ====
/-
  The second kernel region, second part: what one run of the body does to the carried accumulators and to the output
  block, in each of the three cases the grid meets (k = 0: zero, then add the slice's contributions; 0 < k < 7: add;
  k = 7: add, then compute the output block from the accumulators).
-/
import proofs.«145152_j41712722379292_2_alg».proof.Proof.Gen.KernelIdeal.Launch
import proofs.«145152_j41712722379292_2_alg».proof.Proof.Gen.KernelIdeal.Skeleton
import proofs.«145152_j41712722379292_2_alg».proof.Proof.Gen.KernelIdeal.Points
import proofs.«145152_j41712722379292_2_alg».proof.Proof.MainBlocks
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz2' : (![0, 0] : Fin 2 → ℕ) = fun _ => 0 := hz2
theorem coverO (p0 : Vec F S1024x1024 .f32) (L : List (View.Piece (Elt F) S1024x1024 .f32)) (y : S1024x1024.Idx) :
    ∃ pc ∈ ((⟨rO, p0⟩ : View.Piece (Elt F) S1024x1024 .f32) :: L), y ∈ pc.1.set :=
  ⟨_, List.mem_cons_self, View.mem_set_unit_zero hz2' inb_S1024x1024_S1024x1024_0_0 y⟩
theorem coverS (p0 : Vec F S1024x16 .f32) (L : List (View.Piece (Elt F) S1024x16 .f32)) (y : S1024x16.Idx) :
    ∃ pc ∈ ((⟨rB1, p0⟩ : View.Piece (Elt F) S1024x16 .f32) :: L), y ∈ pc.1.set :=
  ⟨_, List.mem_cons_self, View.mem_set_unit_zero hz2' inb_S1024x16_S1024x16_0_0 y⟩

set_option maxHeartbeats 4000000 in
/-- At a point with 0 < k < 7: both accumulators gain the slice's contributions; nothing else changes. -/
theorem run_mid (c : Dev nD) (E : Set ℕ) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S16x512 .f32) (harg5 : arg5.IsWhole) (arg6 : Memref sig .tc .vmem S1024x16 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x16 .f32) (harg10 : arg10.IsWhole)
    (hc0 : ¬cond1_0 i) (hc1 : ¬cond1_1 i)
    (x : Vec F S1024x512 .bf16) (bw : Vec F S1024x512 .bf16) (a : Vec F S16x512 .f32)
    (s9 : Vec F S1024x1024 .f32) (s10 : Vec F S1024x16 .f32) (K : PUnit → sProp 𝕄) :
    iprop(owns (c : Thread nD τ) arg3 fullShare x ∗ owns (c : Thread nD τ) arg4 fullShare bw ∗ owns (c : Thread nD τ) arg5 fullShare a
        ∗ owns (c : Thread nD τ) arg9 fullShare s9 ∗ owns (c : Thread nD τ) arg10 fullShare s10
        ∗ (iprop(owns (c : Thread nD τ) arg3 fullShare x ∗ owns (c : Thread nD τ) arg4 fullShare bw ∗ owns (c : Thread nD τ) arg5 fullShare a
            ∗ owns (c : Thread nD τ) arg9 fullShare (k1_pay4 x bw s9) ∗ owns (c : Thread nD τ) arg10 fullShare (k1_pay5 x a s10)) -∗ K ⟨⟩))
      ⊢ wp frame (wpE (defs₀ (F := F)) Variants.none c none) E (cc1__main_kernel i arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f3, %hf3, H3⟩, ⟨%f4, %hf4, H4⟩, ⟨%f5, %hf5, H5⟩, ⟨%f9, %hf9, H9⟩, ⟨%f10, %hf10, H10⟩, Hk⟩
  subst hf3; subst hf4; subst hf5; subst hf9; subst hf10
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  iexists _; isplitr
  swap; · iexact H10
  ipureintro
  sl_unfold_run_names
  rw [View.read_writes_eq_canon _ _ _ (coverS _ _), View.canon_cons_unit_zero hz2]
  simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]

set_option maxHeartbeats 4000000 in
/-- At a point with k = 0: both accumulators are zeroed and then gain the slice's contributions, whatever they held. -/
theorem run_first (c : Dev nD) (E : Set ℕ) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S16x512 .f32) (harg5 : arg5.IsWhole) (arg6 : Memref sig .tc .vmem S1024x16 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x16 .f32) (harg10 : arg10.IsWhole)
    (hc0 : cond1_0 i) (hc1 : ¬cond1_1 i)
    (x : Vec F S1024x512 .bf16) (bw : Vec F S1024x512 .bf16) (a : Vec F S16x512 .f32) (K : PUnit → sProp 𝕄) :
    iprop(owns (c : Thread nD τ) arg3 fullShare x ∗ owns (c : Thread nD τ) arg4 fullShare bw ∗ owns (c : Thread nD τ) arg5 fullShare a
        ∗ (∃ d, owns (c : Thread nD τ) arg9 fullShare d) ∗ (∃ d, owns (c : Thread nD τ) arg10 fullShare d)
        ∗ (iprop(owns (c : Thread nD τ) arg3 fullShare x ∗ owns (c : Thread nD τ) arg4 fullShare bw ∗ owns (c : Thread nD τ) arg5 fullShare a
            ∗ owns (c : Thread nD τ) arg9 fullShare (k1_pay4 x bw k1_pay1) ∗ owns (c : Thread nD τ) arg10 fullShare (k1_pay5 x a k1_pay2)) -∗ K ⟨⟩))
      ⊢ wp frame (wpE (defs₀ (F := F)) Variants.none c none) E (cc1__main_kernel i arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f3, %hf3, H3⟩, ⟨%f4, %hf4, H4⟩, ⟨%f5, %hf5, H5⟩, ⟨%d9, %f9, -, H9⟩, ⟨%d10, %f10, -, H10⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  iexists _; isplitr
  swap; · iexact H10
  ipureintro
  sl_unfold_run_names
  rw [View.read_writes_eq_canon _ _ _ (coverS _ _), View.canon_cons_unit_zero hz2]
  simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]

set_option maxHeartbeats 4000000 in
/-- At a point with k = 7: both accumulators gain the slice's contributions, and the output block is overwritten
    with its function of the updated accumulators, the block of the second low-rank factor and the scale block. -/
theorem run_last (c : Dev nD) (E : Set ℕ) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S16x512 .f32) (harg5 : arg5.IsWhole) (arg6 : Memref sig .tc .vmem S1024x16 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x16 .f32) (harg10 : arg10.IsWhole)
    (hc0 : ¬cond1_0 i) (hc1 : cond1_1 i)
    (x : Vec F S1024x512 .bf16) (bw : Vec F S1024x512 .bf16) (a : Vec F S16x512 .f32) (bB : Vec F S1024x16 .f32) (sc : Vec F S1x1024 .f32)
    (s9 : Vec F S1024x1024 .f32) (s10 : Vec F S1024x16 .f32) (K : PUnit → sProp 𝕄) :
    iprop(owns (c : Thread nD τ) arg3 fullShare x ∗ owns (c : Thread nD τ) arg4 fullShare bw ∗ owns (c : Thread nD τ) arg5 fullShare a
        ∗ owns (c : Thread nD τ) arg6 fullShare bB ∗ owns (c : Thread nD τ) arg7 fullShare sc ∗ (∃ d, owns (c : Thread nD τ) arg8 fullShare d)
        ∗ owns (c : Thread nD τ) arg9 fullShare s9 ∗ owns (c : Thread nD τ) arg10 fullShare s10
        ∗ (iprop(owns (c : Thread nD τ) arg3 fullShare x ∗ owns (c : Thread nD τ) arg4 fullShare bw ∗ owns (c : Thread nD τ) arg5 fullShare a
            ∗ owns (c : Thread nD τ) arg6 fullShare bB ∗ owns (c : Thread nD τ) arg7 fullShare sc
            ∗ owns (c : Thread nD τ) arg8 fullShare (k1_pay6 bB (k1_pay5 x a s10) sc (k1_pay4 x bw s9))
            ∗ owns (c : Thread nD τ) arg9 fullShare (k1_pay4 x bw s9) ∗ owns (c : Thread nD τ) arg10 fullShare (k1_pay5 x a s10)) -∗ K ⟨⟩))
      ⊢ wp frame (wpE (defs₀ (F := F)) Variants.none c none) E (cc1__main_kernel i arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf3; subst hf4; subst hf5; subst hf6; subst hf7; subst hf9; subst hf10
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  isplitl [H9]
  · iexists _; isplitr
    swap; · iexact H9
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  iexists _; isplitr
  swap; · iexact H10
  ipureintro
  sl_unfold_run_names
  rw [View.read_writes_eq_canon _ _ _ (coverS _ _), View.canon_cons_unit_zero hz2]
  simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]

end Cert.KernelIdeal.Hand

end
-- ==== Proof.MainRegion.lean ====
/-
  The second kernel region, third part: the accumulators point by point, the region's proof data and the body
  obligation.
-/
import proofs.«145152_j41712722379292_2_alg».proof.Proof.Gen.KernelIdeal.Launch
import proofs.«145152_j41712722379292_2_alg».proof.Proof.Gen.KernelIdeal.Skeleton
import proofs.«145152_j41712722379292_2_alg».proof.Proof.Gen.KernelIdeal.Points
import proofs.«145152_j41712722379292_2_alg».proof.Proof.MainRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators after each point -/

/-- What the dense accumulator and the low-rank accumulator hold after the body at position n: at k = 0 the
    slice's contributions added to zero, elsewhere added to what position n - 1 left. -/
def accs (c : Dev nD) : (n : ℕ) → n < cfg1.N → Vec F S1024x1024 .f32 × Vec F S1024x16 .f32
  | 0, hn => (k1_pay4 (iblk1 V c 0 ⟨0, hn⟩) (iblk1 V c 1 ⟨0, hn⟩) k1_pay1, k1_pay5 (iblk1 V c 0 ⟨0, hn⟩) (iblk1 V c 2 ⟨0, hn⟩) k1_pay2)
  | n + 1, hn =>
    if (n + 1) % 8 = 0 then (k1_pay4 (iblk1 V c 0 ⟨n + 1, hn⟩) (iblk1 V c 1 ⟨n + 1, hn⟩) k1_pay1, k1_pay5 (iblk1 V c 0 ⟨n + 1, hn⟩) (iblk1 V c 2 ⟨n + 1, hn⟩) k1_pay2)
    else (k1_pay4 (iblk1 V c 0 ⟨n + 1, hn⟩) (iblk1 V c 1 ⟨n + 1, hn⟩) (accs c n (Nat.lt_of_succ_lt hn)).1, k1_pay5 (iblk1 V c 0 ⟨n + 1, hn⟩) (iblk1 V c 2 ⟨n + 1, hn⟩) (accs c n (Nat.lt_of_succ_lt hn)).2)

theorem accs_first (c : Dev nD) (t : Fin cfg1.N) (h : t.val % 8 = 0) :
    accs V c t.val t.isLt = (k1_pay4 (iblk1 V c 0 t) (iblk1 V c 1 t) k1_pay1, k1_pay5 (iblk1 V c 0 t) (iblk1 V c 2 t) k1_pay2) := by
  obtain ⟨n, hn⟩ := t
  cases n with
  | zero => rfl
  | succ n => exact (if_pos h).trans rfl

theorem accs_next (c : Dev nD) (t : Fin cfg1.N) (h : ¬t.val % 8 = 0) :
    accs V c t.val t.isLt = (k1_pay4 (iblk1 V c 0 t) (iblk1 V c 1 t) (accs V c (t.val - 1) (Nat.lt_of_le_of_lt (Nat.sub_le _ _) t.isLt)).1, k1_pay5 (iblk1 V c 0 t) (iblk1 V c 2 t) (accs V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## What is kept between points -/

/-- Before the first point: the scoped rest at anything. Afterwards: the untouched scoped buffers at anything, the two
    accumulators at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM9 fullShare (accs V c n hn).1 ∗ owns (c : Thread nD τ) scM10 fullShare (accs V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM9 fullShare (accs V c n hn).1 ∗ owns (c : Thread nD τ) scM10 fullShare (accs V c n hn).2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM9 fullShare (accs V c (n - 1) (by omega)).1 ∗ owns (c : Thread nD τ) scM10 fullShare (accs V c (n - 1) (by omega)).2) ∗ (∃ r, prngReg c r)) := by
  cases n with
  | zero => exact absurd rfl hz
  | succ n => rfl

/-! ## The region's proof data -/

/-- The arrays as the region finds them; after the body at point t each input's buffer at its block, the output's
    at its function of the accumulators after t (read only where k = 7); between points the accumulators at their
    contents; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay6 (iblk1 V c 3 t) (accs V c t.val t.isLt).2 (iblk1 V c 4 t) (accs V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay6 (iblk1 V c 3 t) (accs V c t.val t.isLt).2 (iblk1 V c 4 t) (accs V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the closed forms of the two conditions say which case the point is in; the accumulators
    come in at what the point before left (at anything where k = 0) and go out at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val % 8 = 0
  · have h7 : ¬t.val % 8 = 7 := by omega
    have hc0 : cond1_0 (grid1.coords t) := (hcond1_0 t).mpr h0
    have hc1 : ¬cond1_1 (grid1.coords t) := fun h => h7 ((hcond1_1 t).mp h)
    rw [Dat.leavesExact_idle (dat1 V c) 5 t (idleAt1_5 t hc1) (noFlush1_5 t hc1)]
    rw [accs_first V c t h0]
    (try dsimp only)
    by_cases hz : t.val = 0
    · rw [PhiS_castSucc V c t, PhiS_zero V c _ _ hz, PhiA1_eq]
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, H5⟩
      iapply (run_first c Set.univ (grid1.coords t) _ _ _ _ _ _ _ _ _ _ _ _ _ _ _ _ hc0 hc1 (iblk1 V c 0 t) (iblk1 V c 1 t) (iblk1 V c 2 t) _)
      isplitl [H0]; · iexact H0
      isplitl [H1]; · iexact H1
      isplitl [H2]; · iexact H2
      isplitl [HS9]; · iexact HS9
      isplitl [HS10]; · iexact HS10
      iintro ⟨H0, H1, H2, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, H5⟩
      iapply (run_first c Set.univ (grid1.coords t) _ _ _ _ _ _ _ _ _ _ _ _ _ _ _ _ hc0 hc1 (iblk1 V c 0 t) (iblk1 V c 1 t) (iblk1 V c 2 t) _)
      isplitl [H0]; · iexact H0
      isplitl [H1]; · iexact H1
      isplitl [H2]; · iexact H2
      isplitl [HS9]; · iexists _; iexact HS9
      isplitl [HS10]; · iexists _; iexact HS10
      iintro ⟨H0, H1, H2, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    have hc0 : ¬cond1_0 (grid1.coords t) := fun h => h0 ((hcond1_0 t).mp h)
    rw [PhiS_castSucc V c t, PhiS_pos V c _ _ hz]
    by_cases h7 : t.val % 8 = 7
    · have hc1 : cond1_1 (grid1.coords t) := (hcond1_1 t).mpr h7
      rw [show (dat1 V c).leavesExact 5 t = owns (c : Thread nD τ) (st1_5 t) fullShare ((dat1 V c).after 5 t) from by
        unfold Dat.leavesExact; rw [liveAt1_5 t hc1], after1_5]
      rw [accs_next V c t h0]
      (try dsimp only)
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, ⟨%d5, H5⟩⟩
      iapply (run_last c Set.univ (grid1.coords t) _ _ _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS9]; · iexact HS9
      isplitl [HS10]; · iexact HS10
      iintro ⟨H0, H1, H2, H3, H4, H5, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h7 ((hcond1_1 t).mp h)
      rw [Dat.leavesExact_idle (dat1 V c) 5 t (idleAt1_5 t hc1) (noFlush1_5 t hc1)]
      rw [accs_next V c t h0]
      (try dsimp only)
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, H5⟩
      iapply (run_mid c Set.univ (grid1.coords t) _ _ _ _ _ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [HS9]; · iexact HS9
      isplitl [HS10]; · iexact HS10
      iintro ⟨H0, H1, H2, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation1 (c : Dev nD) : BodyObligation (dat1 (F := F) V c) (defs₀ (F := F)) Variants.none () Set.univ := fun t => by
  rw [bigSep_W1, bigSep_W1]
  exact sound_body1 V c t

/-- What the launch hands the region is what is kept before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the accumulators' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨A1, A2, A3, A4, A5, A6, A7, A8, A9, A10, A11, HS9, HS10⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [HS9]; · iexists _; iexact HS9
    iexists _; iexact HS10
  iexact Hg

end Cert.KernelIdeal.Hand

end
-- ==== Proof.RunAll.lean ====
/-
  The whole run of the kernel program, at any float instance.

  The program is four stretches in order: the host lays the magnitudes [4096] out as a column [4096, 1]; the first
  kernel region computes the scale row and the narrowed copy of the dense weight; the host narrows the tokens to
  the short format; the second kernel region computes the output. Between two stretches every buffer that outlives
  a region holds known contents, computed stretch by stretch from the launch memory:

    W0  the launch memory,
    W1  after the column layout,
    W2  after the first region: its six arrays at what its write-backs leave, every other buffer as in W1,
    W3  after the narrowing of the tokens,
    W4  after the second region: its six arrays at what its write-backs leave, every other buffer as in W3.

  A host stretch changes only the buffer it writes; a region changes only its output arrays (an input array is
  never written back). So each of the five arguments is still at its launch contents in W4, and the result buffer
  holds in W4 the second region's output array after its last write-back. The run theorem says that every fair
  execution terminates with every such buffer at its W4 contents.
-/
import proofs.«145152_j41712722379292_2_alg».proof.Proof.NormRegion
import proofs.«145152_j41712722379292_2_alg».proof.Proof.MainRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the stretches -/

/-- A core's buffers at launch. -/
abbrev W0 : Dev nD → Valuation τ sig (Elt F) := fun c b => (s₀ m ρ).mem ((c : Dev nD), b)
/-- After the column layout of the magnitudes: what the first region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the first region: each of its six arrays at what the write-backs of all 16 points leave (an input array
    as entered), every other buffer as entered. -/
def W2 (c : Dev nD) : Valuation τ sig (Elt F) :=
  Pipeline.withArrays spec0 c (W1 m ρ c) fun w => (dat0 (V1 m ρ) c).arrAt w cfg0.N
/-- W2 at an array of the first region. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- W2 at a buffer that is no array of the first region. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At the first region's exit each of its arrays holds what the region leaves … -/
theorem hF0 (c : Dev nD) (w : Fin cfg0.W) : (dat0 (V1 m ρ) c).arrAt w cfg0.N = V2 m ρ c (Pipeline.arrRef spec0 w) :=
  (W2_arr m ρ c w).symm
/-- … and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the narrowing of the tokens: what the second region is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b

/-! ## What a host stretch leaves alone -/

/-- The column layout writes main_v0 only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- The narrowing of the tokens writes main_v2 only. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- After the second region: each of its six arrays at what the write-backs of all 256 points leave (an input array
    as entered), every other buffer as entered. -/
def W4 (c : Dev nD) : Valuation τ sig (Elt F) :=
  Pipeline.withArrays spec1 c (W3 m ρ c) fun w => (dat1 (V3 m ρ) c).arrAt w cfg1.N
/-- W4 at an array of the second region. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- W4 at a buffer that is no array of the second region. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At the second region's exit each of its arrays holds what the region leaves … -/
theorem hF1 (c : Dev nD) (w : Fin cfg1.W) : (dat1 (V3 m ρ) c).arrAt w cfg1.N = V4 m ρ c (Pipeline.arrRef spec1 w) :=
  (W4_arr m ρ c w).symm
/-- … and every other buffer what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the result is the second region's output array

No host stretch writes an argument; a region reads an argument through an input window (whose array is never
written back) or does not touch it. So W4 at an argument walks back, stretch by stretch, to the launch memory. -/

/-- The tokens: no array of either region. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- The first low-rank factor: input window 2 of both regions. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := W1_of_ne m ρ c main_arg1 (by decide)
    _ = m ((c : Thread nD τ).loc main_arg1) := rfl

/-- The second low-rank factor: input window 3 of the second region, input window 1 of the first. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (V3 m ρ) c).arrAt_in 3 rfl _).trans (A_eq1 (V3 m ρ) c 3))
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide)
    _ = m ((c : Thread nD τ).loc main_arg2) := rfl

/-- The dense weight: no array of the second region, input window 0 of the first. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := W1_of_ne m ρ c main_arg3 (by decide)
    _ = m ((c : Thread nD τ).loc main_arg3) := rfl

/-- The magnitudes: no array of either region (the first region reads their column layout, another buffer). -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- The result buffer ends at the second region's output array after the write-backs of all its points. -/
theorem W4_out (c : Dev nD) : W4 m ρ c (Proc.devRef .tc main_v3) = (dat1 (V3 m ρ) c).arrAt 5 cfg1.N :=
  W4_arr m ρ c 5

/-! ## What each region finds in its arrays

The first region is entered from W1: the arguments as launched, and the column layout of the magnitudes. The second
is entered from W3: the narrowed tokens, the first region's two output arrays as it left them, and the two low-rank
factors as launched. -/

/-- At the first region's entry the tokens are as launched. -/
theorem V1_arg0 (c : Dev nD) : V1 m ρ c main_arg0 = m ((c : Thread nD τ).loc main_arg0) := W1_of_ne m ρ c main_arg0 (by decide)
/-- At the first region's entry the first low-rank factor is as launched. -/
theorem V1_arg1 (c : Dev nD) : V1 m ρ c main_arg1 = m ((c : Thread nD τ).loc main_arg1) := W1_of_ne m ρ c main_arg1 (by decide)
/-- At the first region's entry the second low-rank factor is as launched. -/
theorem V1_arg2 (c : Dev nD) : V1 m ρ c main_arg2 = m ((c : Thread nD τ).loc main_arg2) := W1_of_ne m ρ c main_arg2 (by decide)
/-- At the first region's entry the dense weight is as launched. -/
theorem V1_arg3 (c : Dev nD) : V1 m ρ c main_arg3 = m ((c : Thread nD τ).loc main_arg3) := W1_of_ne m ρ c main_arg3 (by decide)
/-- At the first region's entry the magnitudes are as launched. -/
theorem V1_arg4 (c : Dev nD) : V1 m ρ c main_arg4 = m ((c : Thread nD τ).loc main_arg4) := W1_of_ne m ρ c main_arg4 (by decide)

/-- At the first region's entry main_v0 holds the launched magnitudes [4096] laid out in row-major order as a
    column [4096, 1]. -/
theorem V1_v0 (c : Dev nD) :
    V1 m ρ c main_v0 = shapeCast S4096x1 (m ((c : Thread nD τ).loc main_arg4)) shapeCasts_S4096_S4096x1 := by
  show StableHlo.after hostOps0 (W0 m ρ c) (Proc.devRef .tc main_v0) = _
  after_results; rfl

/-- At the second region's entry main_v2 holds the launched tokens narrowed to the short format. -/
theorem V3_v2 (c : Dev nD) :
    V3 m ρ c main_v2 = truncf .bf16 (m ((c : Thread nD τ).loc main_arg0)) bitsLt_bf16_f32 := by
  have h0 : W2 m ρ c (Proc.devRef .tc main_arg0) = m ((c : Thread nD τ).loc main_arg0) :=
    (W2_of_ne m ρ c main_arg0 (by decide)).trans (W1_of_ne m ρ c main_arg0 (by decide))
  show StableHlo.after hostOps1 (W2 m ρ c) (Proc.devRef .tc main_v2) = _
  after_results
  rw [h0]

/-- At the second region's entry the scale row is the first region's output array 4 after all its write-backs. -/
theorem V3_v1_0 (c : Dev nD) : V3 m ρ c main_v1_0 = (dat0 (V1 m ρ) c).arrAt 4 cfg0.N :=
  (W3_of_ne m ρ c main_v1_0 (by decide)).trans (W2_arr m ρ c 4)
/-- At the second region's entry the narrowed dense weight is the first region's output array 5 after all its
    write-backs. -/
theorem V3_v1_1 (c : Dev nD) : V3 m ρ c main_v1_1 = (dat0 (V1 m ρ) c).arrAt 5 cfg0.N :=
  (W3_of_ne m ρ c main_v1_1 (by decide)).trans (W2_arr m ρ c 5)
/-- At the second region's entry the first low-rank factor is as launched (the first region only read it). -/
theorem V3_arg1 (c : Dev nD) : V3 m ρ c main_arg1 = m ((c : Thread nD τ).loc main_arg1) :=
  (W3_of_ne m ρ c main_arg1 (by decide)).trans <|
    ((W2_arr m ρ c 2).trans (((dat0 (V1 m ρ) c).arrAt_in 2 rfl _).trans (A_eq0 (V1 m ρ) c 2))).trans (V1_arg1 m ρ c)
/-- At the second region's entry the second low-rank factor is as launched (the first region only read it). -/
theorem V3_arg2 (c : Dev nD) : V3 m ρ c main_arg2 = m ((c : Thread nD τ).loc main_arg2) :=
  (W3_of_ne m ρ c main_arg2 (by decide)).trans <|
    ((W2_arr m ρ c 1).trans (((dat0 (V1 m ρ) c).arrAt_in 1 rfl _).trans (A_eq0 (V1 m ρ) c 1))).trans (V1_arg2 m ρ c)

/-! ## The regions' proof data, and what a core holds between two stretches -/

/-- The admissible contents of the prefetched tables: neither region has a table. -/
abbrev adm : (p : Fin 2) → (pcfgs (F := F) p).Adm := fun p => (cfgs p).toPCfg_adm
/-- Each region's proof data at the contents the region is entered from (a literal match on the region's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two stretches: its generator register at some state, and it owes
    nothing. -/
abbrev R (c : Dev nD) : sProp 𝕄 := iprop((∃ r, prngReg c r) ∗ ∃ W, owes (c : Thread nD τ) (0 : CellTallies nD τ sig Unit) W)
/-- A host stretch run from the contents W of the buffers that outlive a region: it leaves them at the stretch's
    effect on W, the rest of the core's state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The column layout allocates no buffer. -/
theorem hostOps0_fresh : (hostOps0 : List (HloOp τ sig (Elt F))).Forall fun op => op.fresh = ∅ := by
  simp only [List.Forall]; repeat' constructor
/-- The narrowing of the tokens allocates no buffer. -/
theorem hostOps1_fresh : (hostOps1 : List (HloOp τ sig (Elt F))).Forall fun op => op.fresh = ∅ := by
  simp only [List.Forall]; repeat' constructor
/-- A buffer that outlives a region is among those a core holds between two stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, the owing apart: every buffer that outlives a region at its W4 contents, the
    generator register at some state. -/
abbrev Tₙ (c : Dev nD) : sProp 𝕄 := iprop(StableHlo.held (c : Thread nD τ) (Pipeline.ucRefs τ sig) (W4 m ρ c) ∗ ∃ r, prngReg c r)

/-! ## The two regions as stretches of the run -/

set_option backward.isDefEq.respectTransparency.types false in
/-- The first region: entered with the buffers at W1, left with them at W2. At entry its six arrays are taken out
    of the buffers the core holds; at exit they are put back at what the write-backs leave. The generator register
    goes into the region's invariant (with the scratch space no window stages) and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with the buffers at W3, left with them at W4 (what the run ends with). As for the
    first region, except that its invariant depends on the point (it carries two scratch accumulators from point to
    point): at the first point the invariant follows from the scratch space at any contents beside the generator
    register, and at the last point it gives both back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (hin1 (V3 m ρ) c)
  hout c := by
    rw [Pipeline.ownSems0_none]
    have hA : (Pipeline.ΦA spec1 c : sProp 𝕄) ⊢ iprop((∃ r, prngReg c r) ∗ emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four stretches, and the run -/

/-- The four stretches in order, each host stretch from the contents it starts at. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its four stretches. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and in every final state each buffer that outlives a region holds its W4
    contents: the launch deals each core its buffers at the launch memory W0, the four stretches carry them to W4,
    and the last state is read against the final memory. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.KernelIdeal.Hand

end
-- ==== Proof.NormRegionK.lean ====
/-
  The first kernel region (the weight-norm kernel), at any float instance, entered from buffer contents V.

  The grid has 16 points; point t handles rows 256 t … 256 t + 255 of the dense weight. Its inputs are a
  [256, 4096] block of the dense weight, a [256, 16] block of the second low-rank factor, the whole first
  low-rank factor [16, 4096] and a [256, 1] block of the magnitudes; its outputs are a [1, 256] block of the
  scale row and a [256, 4096] block of the narrowed copy of the dense weight. The body reads the four input
  blocks and overwrites both output blocks whole with pure functions of them; nothing is kept between points.
-/
import proofs.«145152_j41712722379292_2_alg».proof.Proof.Gen.Kernel.Launch
import proofs.«145152_j41712722379292_2_alg».proof.Proof.Gen.Kernel.Skeleton
import proofs.«145152_j41712722379292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store goes through the whole block -/

abbrev rW : Rect S256x4096 := Rect.unit (s := S256x4096) ![0, 0] S256x4096.size inb_S256x4096_S256x4096_0_0
abbrev rB : Rect S256x16 := Rect.unit (s := S256x16) ![0, 0] S256x16.size inb_S256x16_S256x16_0_0
abbrev rA : Rect S16x4096 := Rect.unit (s := S16x4096) ![0, 0] S16x4096.size inb_S16x4096_S16x4096_0_0
abbrev rG : Rect S256x1 := Rect.unit (s := S256x1) ![0, 0] S256x1.size inb_S256x1_S256x1_0_0
abbrev rS : Rect S1x256 := Rect.unit (s := S1x256) ![0, 0] S1x256.size inb_S1x256_S1x256_0_0

/-! ## What the body leaves in each output window's buffer -/

/-- The scale block after the body, from the four input blocks (dense-weight block xw, low-rank blocks xb and xa,
    magnitude block xg). -/
def out0_4 (xw : Vec F S256x4096 .f32) (xb : Vec F S256x16 .f32) (xa : Vec F S16x4096 .f32) (xg : Vec F S256x1 .f32) : Vec F S1x256 .f32 :=
  View.canon [⟨rS, k0_pay1 (View.ld xb rB) (View.ld xa rA) (View.ld xw rW) (View.ld xg rG)⟩]

/-- The narrowed copy's block after the body, from the dense-weight block. -/
def out0_5 (xw : Vec F S256x4096 .f32) : Vec F S256x4096 .bf16 :=
  View.canon [⟨rW, k0_pay2 (View.ld xw rW)⟩]

theorem cover0_4 (p0 : Vec F S1x256 .f32) (y : S1x256.Idx) :
    ∃ pc ∈ ([⟨rS, p0⟩] : List (View.Piece (Elt F) S1x256 .f32)), y ∈ pc.1.set :=
  View.cover_of_tiled [⟨rS, p0⟩] S1x256.size (by rfl) y
theorem cover0_5 (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

/-! ## The body's triple -/

set_option maxHeartbeats 2000000 in
/-- On whole staging memrefs, the inputs' at their contents and the outputs' at anything, the body runs to the
    continuation with the inputs as they were and each output at its function of the inputs. -/
theorem sound_kernel0 (c : Dev nD) (E : Set ℕ) (i : grid0.Coords)
    (arg1 : Memref sig .tc .vmem S256x4096 .f32) (harg1 : arg1.IsWhole) (arg2 : Memref sig .tc .vmem S256x16 .f32) (harg2 : arg2.IsWhole)
    (arg3 : Memref sig .tc .vmem S16x4096 .f32) (harg3 : arg3.IsWhole) (arg4 : Memref sig .tc .vmem S256x1 .f32) (harg4 : arg4.IsWhole)
    (arg5 : Memref sig .tc .vmem S1x256 .f32) (harg5 : arg5.IsWhole) (arg6 : Memref sig .tc .vmem S256x4096 .bf16) (harg6 : arg6.IsWhole)
    (xw : Vec F S256x4096 .f32) (xb : Vec F S256x16 .f32) (xa : Vec F S16x4096 .f32) (xg : Vec F S256x1 .f32) (K : PUnit → sProp 𝕄) :
    iprop(owns (c : Thread nD τ) arg1 fullShare xw ∗ owns (c : Thread nD τ) arg2 fullShare xb ∗ owns (c : Thread nD τ) arg3 fullShare xa
        ∗ owns (c : Thread nD τ) arg4 fullShare xg ∗ (∃ d, owns (c : Thread nD τ) arg5 fullShare d) ∗ (∃ d, owns (c : Thread nD τ) arg6 fullShare d)
        ∗ (iprop(owns (c : Thread nD τ) arg1 fullShare xw ∗ owns (c : Thread nD τ) arg2 fullShare xb ∗ owns (c : Thread nD τ) arg3 fullShare xa
            ∗ owns (c : Thread nD τ) arg4 fullShare xg ∗ owns (c : Thread nD τ) arg5 fullShare (out0_4 xw xb xa xg)
            ∗ owns (c : Thread nD τ) arg6 fullShare (out0_5 xw)) -∗ K ⟨⟩))
      ⊢ wp frame (wpE (defs₀ (F := F)) Variants.none c none) E (cc0__norm_kernel i arg1 harg1 arg2 harg2 arg3 harg3 arg4 harg4 arg5 harg5 arg6 harg6) K := by
  simp only [cc0__norm_kernel_eq_skeleton]; unfold cc0__norm_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_4 _)
  iexists _; isplitr
  swap; · iexact H6
  ipureintro
  exact View.read_writes_eq_canon _ _ _ (cover0_5 _)

/-! ## The region's proof data -/

/-- The arrays as the region finds them; after the body at point t each input's buffer at its block and each
    output's at its function of the input blocks; nothing kept between points beyond the untouched scoped rest;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
    | ⟨5, _⟩ => out0_5 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]
theorem after0_5 (c : Dev nD) (t : Fin cfg0.N) : (dat0 V c).after 5 t = out0_5 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.MainBlocksK.lean ====
/-
  The second kernel region (the fused matmul kernel), first part: its blocks, its branch conditions over the grid and
  what it keeps between points.

  The grid is 8 x 4 x 8, the last coordinate k innermost; point (i, j, k) handles rows 1024 i … of the tokens,
  output features 1024 j … and the k-th slice of 512 input features. Two scratch arrays are carried from point to
  point: a [1024, 1024] accumulator of the dense product and a [1024, 16] accumulator of the low-rank projection.
  At k = 0 both are zeroed first; at every point the slice's contributions are added; at k = 7 the output block is
  computed from the two accumulators, the block of the second low-rank factor and the block of the scale row, and
  only there is the output block written back.
-/
import proofs.«145152_j41712722379292_2_alg».proof.Proof.Gen.Kernel.Launch
import proofs.«145152_j41712722379292_2_alg».proof.Proof.Gen.Kernel.Skeleton
import proofs.«145152_j41712722379292_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions, decided over the grid -/

/-- The first branch (zero the accumulators) is taken where k = 0. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The second branch (compute and store the output block) is taken where k = 7. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from k = 7 the output window is idle and not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
theorem liveAt1_5 : ∀ t : Fin cfg1.N, cond1_1 (grid1.coords t) → cfg1.idle 5 (grid1.coords t) = false := by decide +kernel

/-! ## The body's accesses: every load and store goes through the whole block -/

abbrev rX : Rect S1024x512 := Rect.unit (s := S1024x512) ![0, 0] S1024x512.size inb_S1024x512_S1024x512_0_0
abbrev rA1 : Rect S16x512 := Rect.unit (s := S16x512) ![0, 0] S16x512.size inb_S16x512_S16x512_0_0
abbrev rB1 : Rect S1024x16 := Rect.unit (s := S1024x16) ![0, 0] S1024x16.size inb_S1024x16_S1024x16_0_0
abbrev rS1 : Rect S1x1024 := Rect.unit (s := S1x1024) ![0, 0] S1x1024.size inb_S1x1024_S1x1024_0_0
abbrev rO : Rect S1024x1024 := Rect.unit (s := S1024x1024) ![0, 0] S1024x1024.size inb_S1024x1024_S1024x1024_0_0

/-- The two carried scratch arrays as memrefs. -/
abbrev scM9 : Memref sig .tc .vmem S1024x1024 .f32 := Memref.whole cc1_scratch0
abbrev scM10 : Memref sig .tc .vmem S1024x16 .f32 := Memref.whole cc1_scratch1

/-- The scoped buffers of the core that are neither staging buffers of this region nor its scratch, each at some
    contents: nothing here reads or writes them. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f))

/-- The class invariant split: the untouched scoped buffers, the two scratch arrays at some contents, the
    generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ d, owns (c : Thread nD τ) scM9 fullShare d) ∗ (∃ d, owns (c : Thread nD τ) scM10 fullShare d)) ∗ (∃ r, prngReg c r)) := by
  unfold Pipeline.ΦA; rw [scopedRest1_eq]; simp only [scM9, scM10, owns_whole]; try rfl

end Cert.Kernel.Hand

end
-- ==== Proof.MainRunsK.lean ====
/-
  The second kernel region, second part: what one run of the body does to the carried accumulators and to the output
  block, in each of the three cases the grid meets (k = 0: zero, then add the slice's contributions; 0 < k < 7: add;
  k = 7: add, then compute the output block from the accumulators).
-/
import proofs.«145152_j41712722379292_2_alg».proof.Proof.Gen.Kernel.Launch
import proofs.«145152_j41712722379292_2_alg».proof.Proof.Gen.Kernel.Skeleton
import proofs.«145152_j41712722379292_2_alg».proof.Proof.Gen.Kernel.Points
import proofs.«145152_j41712722379292_2_alg».proof.Proof.MainBlocksK
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → ℕ) = fun _ => 0 := by funext a; fin_cases a <;> rfl
theorem hz2' : (![0, 0] : Fin 2 → ℕ) = fun _ => 0 := hz2
theorem coverO (p0 : Vec F S1024x1024 .f32) (L : List (View.Piece (Elt F) S1024x1024 .f32)) (y : S1024x1024.Idx) :
    ∃ pc ∈ ((⟨rO, p0⟩ : View.Piece (Elt F) S1024x1024 .f32) :: L), y ∈ pc.1.set :=
  ⟨_, List.mem_cons_self, View.mem_set_unit_zero hz2' inb_S1024x1024_S1024x1024_0_0 y⟩
theorem coverS (p0 : Vec F S1024x16 .f32) (L : List (View.Piece (Elt F) S1024x16 .f32)) (y : S1024x16.Idx) :
    ∃ pc ∈ ((⟨rB1, p0⟩ : View.Piece (Elt F) S1024x16 .f32) :: L), y ∈ pc.1.set :=
  ⟨_, List.mem_cons_self, View.mem_set_unit_zero hz2' inb_S1024x16_S1024x16_0_0 y⟩

set_option maxHeartbeats 4000000 in
/-- At a point with 0 < k < 7: both accumulators gain the slice's contributions; nothing else changes. -/
theorem run_mid (c : Dev nD) (E : Set ℕ) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S16x512 .f32) (harg5 : arg5.IsWhole) (arg6 : Memref sig .tc .vmem S1024x16 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x16 .f32) (harg10 : arg10.IsWhole)
    (hc0 : ¬cond1_0 i) (hc1 : ¬cond1_1 i)
    (x : Vec F S1024x512 .bf16) (bw : Vec F S1024x512 .bf16) (a : Vec F S16x512 .f32)
    (s9 : Vec F S1024x1024 .f32) (s10 : Vec F S1024x16 .f32) (K : PUnit → sProp 𝕄) :
    iprop(owns (c : Thread nD τ) arg3 fullShare x ∗ owns (c : Thread nD τ) arg4 fullShare bw ∗ owns (c : Thread nD τ) arg5 fullShare a
        ∗ owns (c : Thread nD τ) arg9 fullShare s9 ∗ owns (c : Thread nD τ) arg10 fullShare s10
        ∗ (iprop(owns (c : Thread nD τ) arg3 fullShare x ∗ owns (c : Thread nD τ) arg4 fullShare bw ∗ owns (c : Thread nD τ) arg5 fullShare a
            ∗ owns (c : Thread nD τ) arg9 fullShare (k1_pay4 x bw s9) ∗ owns (c : Thread nD τ) arg10 fullShare (k1_pay5 x a s10)) -∗ K ⟨⟩))
      ⊢ wp frame (wpE (defs₀ (F := F)) Variants.none c none) E (cc1__main_kernel i arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f3, %hf3, H3⟩, ⟨%f4, %hf4, H4⟩, ⟨%f5, %hf5, H5⟩, ⟨%f9, %hf9, H9⟩, ⟨%f10, %hf10, H10⟩, Hk⟩
  subst hf3; subst hf4; subst hf5; subst hf9; subst hf10
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  iexists _; isplitr
  swap; · iexact H10
  ipureintro
  sl_unfold_run_names
  rw [View.read_writes_eq_canon _ _ _ (coverS _ _), View.canon_cons_unit_zero hz2]
  simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]

set_option maxHeartbeats 4000000 in
/-- At a point with k = 0: both accumulators are zeroed and then gain the slice's contributions, whatever they held. -/
theorem run_first (c : Dev nD) (E : Set ℕ) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S16x512 .f32) (harg5 : arg5.IsWhole) (arg6 : Memref sig .tc .vmem S1024x16 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x16 .f32) (harg10 : arg10.IsWhole)
    (hc0 : cond1_0 i) (hc1 : ¬cond1_1 i)
    (x : Vec F S1024x512 .bf16) (bw : Vec F S1024x512 .bf16) (a : Vec F S16x512 .f32) (K : PUnit → sProp 𝕄) :
    iprop(owns (c : Thread nD τ) arg3 fullShare x ∗ owns (c : Thread nD τ) arg4 fullShare bw ∗ owns (c : Thread nD τ) arg5 fullShare a
        ∗ (∃ d, owns (c : Thread nD τ) arg9 fullShare d) ∗ (∃ d, owns (c : Thread nD τ) arg10 fullShare d)
        ∗ (iprop(owns (c : Thread nD τ) arg3 fullShare x ∗ owns (c : Thread nD τ) arg4 fullShare bw ∗ owns (c : Thread nD τ) arg5 fullShare a
            ∗ owns (c : Thread nD τ) arg9 fullShare (k1_pay4 x bw k1_pay1) ∗ owns (c : Thread nD τ) arg10 fullShare (k1_pay5 x a k1_pay2)) -∗ K ⟨⟩))
      ⊢ wp frame (wpE (defs₀ (F := F)) Variants.none c none) E (cc1__main_kernel i arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f3, %hf3, H3⟩, ⟨%f4, %hf4, H4⟩, ⟨%f5, %hf5, H5⟩, ⟨%d9, %f9, -, H9⟩, ⟨%d10, %f10, -, H10⟩, Hk⟩
  subst hf3; subst hf4; subst hf5
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H9]
  · iexists _; isplitr
    swap; · iexact H9
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  iexists _; isplitr
  swap; · iexact H10
  ipureintro
  sl_unfold_run_names
  rw [View.read_writes_eq_canon _ _ _ (coverS _ _), View.canon_cons_unit_zero hz2]
  simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]

set_option maxHeartbeats 4000000 in
/-- At a point with k = 7: both accumulators gain the slice's contributions, and the output block is overwritten
    with its function of the updated accumulators, the block of the second low-rank factor and the scale block. -/
theorem run_last (c : Dev nD) (E : Set ℕ) (i : grid1.Coords)
    (arg3 : Memref sig .tc .vmem S1024x512 .bf16) (harg3 : arg3.IsWhole) (arg4 : Memref sig .tc .vmem S1024x512 .bf16) (harg4 : arg4.IsWhole)
    (arg5 : Memref sig .tc .vmem S16x512 .f32) (harg5 : arg5.IsWhole) (arg6 : Memref sig .tc .vmem S1024x16 .f32) (harg6 : arg6.IsWhole)
    (arg7 : Memref sig .tc .vmem S1x1024 .f32) (harg7 : arg7.IsWhole) (arg8 : Memref sig .tc .vmem S1024x1024 .f32) (harg8 : arg8.IsWhole)
    (arg9 : Memref sig .tc .vmem S1024x1024 .f32) (harg9 : arg9.IsWhole) (arg10 : Memref sig .tc .vmem S1024x16 .f32) (harg10 : arg10.IsWhole)
    (hc0 : ¬cond1_0 i) (hc1 : cond1_1 i)
    (x : Vec F S1024x512 .bf16) (bw : Vec F S1024x512 .bf16) (a : Vec F S16x512 .f32) (bB : Vec F S1024x16 .f32) (sc : Vec F S1x1024 .f32)
    (s9 : Vec F S1024x1024 .f32) (s10 : Vec F S1024x16 .f32) (K : PUnit → sProp 𝕄) :
    iprop(owns (c : Thread nD τ) arg3 fullShare x ∗ owns (c : Thread nD τ) arg4 fullShare bw ∗ owns (c : Thread nD τ) arg5 fullShare a
        ∗ owns (c : Thread nD τ) arg6 fullShare bB ∗ owns (c : Thread nD τ) arg7 fullShare sc ∗ (∃ d, owns (c : Thread nD τ) arg8 fullShare d)
        ∗ owns (c : Thread nD τ) arg9 fullShare s9 ∗ owns (c : Thread nD τ) arg10 fullShare s10
        ∗ (iprop(owns (c : Thread nD τ) arg3 fullShare x ∗ owns (c : Thread nD τ) arg4 fullShare bw ∗ owns (c : Thread nD τ) arg5 fullShare a
            ∗ owns (c : Thread nD τ) arg6 fullShare bB ∗ owns (c : Thread nD τ) arg7 fullShare sc
            ∗ owns (c : Thread nD τ) arg8 fullShare (k1_pay6 bB (k1_pay5 x a s10) sc (k1_pay4 x bw s9))
            ∗ owns (c : Thread nD τ) arg9 fullShare (k1_pay4 x bw s9) ∗ owns (c : Thread nD τ) arg10 fullShare (k1_pay5 x a s10)) -∗ K ⟨⟩))
      ⊢ wp frame (wpE (defs₀ (F := F)) Variants.none c none) E (cc1__main_kernel i arg3 harg3 arg4 harg4 arg5 harg5 arg6 harg6 arg7 harg7 arg8 harg8 arg9 harg9 arg10 harg10) K := by
  simp only [cc1__main_kernel_eq_skeleton]; unfold cc1__main_kernel_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, Hk⟩
  subst hf3; subst hf4; subst hf5; subst hf6; subst hf7; subst hf9; subst hf10
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  isplitl [H9]
  · iexists _; isplitr
    swap; · iexact H9
    ipureintro
    sl_unfold_run_names
    rw [View.read_writes_eq_canon _ _ _ (coverO _ _), View.canon_cons_unit_zero hz2]
    simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]
  iexists _; isplitr
  swap; · iexact H10
  ipureintro
  sl_unfold_run_names
  rw [View.read_writes_eq_canon _ _ _ (coverS _ _), View.canon_cons_unit_zero hz2]
  simp only [View.readAt_eq_ld, View.ld_unit_zero (S := S1024x512) hz2, View.ld_unit_zero (S := S1024x1024) hz2, View.ld_unit_zero (S := S16x512) hz2, View.ld_unit_zero (S := S1024x16) hz2, View.ld_unit_zero (S := S1x1024) hz2, View.readCov_unit_zero (S := S1024x1024) _ hz2, View.readCov_unit_zero (S := S1024x16) _ hz2]

end Cert.Kernel.Hand

end
-- ==== Proof.MainRegionK.lean ====
/-
  The second kernel region, third part: the accumulators point by point, the region's proof data and the body
  obligation.
-/
import proofs.«145152_j41712722379292_2_alg».proof.Proof.Gen.Kernel.Launch
import proofs.«145152_j41712722379292_2_alg».proof.Proof.Gen.Kernel.Skeleton
import proofs.«145152_j41712722379292_2_alg».proof.Proof.Gen.Kernel.Points
import proofs.«145152_j41712722379292_2_alg».proof.Proof.MainRunsK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The accumulators after each point -/

/-- What the dense accumulator and the low-rank accumulator hold after the body at position n: at k = 0 the
    slice's contributions added to zero, elsewhere added to what position n - 1 left. -/
def accs (c : Dev nD) : (n : ℕ) → n < cfg1.N → Vec F S1024x1024 .f32 × Vec F S1024x16 .f32
  | 0, hn => (k1_pay4 (iblk1 V c 0 ⟨0, hn⟩) (iblk1 V c 1 ⟨0, hn⟩) k1_pay1, k1_pay5 (iblk1 V c 0 ⟨0, hn⟩) (iblk1 V c 2 ⟨0, hn⟩) k1_pay2)
  | n + 1, hn =>
    if (n + 1) % 8 = 0 then (k1_pay4 (iblk1 V c 0 ⟨n + 1, hn⟩) (iblk1 V c 1 ⟨n + 1, hn⟩) k1_pay1, k1_pay5 (iblk1 V c 0 ⟨n + 1, hn⟩) (iblk1 V c 2 ⟨n + 1, hn⟩) k1_pay2)
    else (k1_pay4 (iblk1 V c 0 ⟨n + 1, hn⟩) (iblk1 V c 1 ⟨n + 1, hn⟩) (accs c n (Nat.lt_of_succ_lt hn)).1, k1_pay5 (iblk1 V c 0 ⟨n + 1, hn⟩) (iblk1 V c 2 ⟨n + 1, hn⟩) (accs c n (Nat.lt_of_succ_lt hn)).2)

theorem accs_first (c : Dev nD) (t : Fin cfg1.N) (h : t.val % 8 = 0) :
    accs V c t.val t.isLt = (k1_pay4 (iblk1 V c 0 t) (iblk1 V c 1 t) k1_pay1, k1_pay5 (iblk1 V c 0 t) (iblk1 V c 2 t) k1_pay2) := by
  obtain ⟨n, hn⟩ := t
  cases n with
  | zero => rfl
  | succ n => exact (if_pos h).trans rfl

theorem accs_next (c : Dev nD) (t : Fin cfg1.N) (h : ¬t.val % 8 = 0) :
    accs V c t.val t.isLt = (k1_pay4 (iblk1 V c 0 t) (iblk1 V c 1 t) (accs V c (t.val - 1) (Nat.lt_of_le_of_lt (Nat.sub_le _ _) t.isLt)).1, k1_pay5 (iblk1 V c 0 t) (iblk1 V c 2 t) (accs V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## What is kept between points -/

/-- Before the first point: the scoped rest at anything. Afterwards: the untouched scoped buffers at anything, the two
    accumulators at what the point before left, the generator register at some state. -/
def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM9 fullShare (accs V c n hn).1 ∗ owns (c : Thread nD τ) scM10 fullShare (accs V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM9 fullShare (accs V c n hn).1 ∗ owns (c : Thread nD τ) scM10 fullShare (accs V c n hn).2) ∗ (∃ r, prngReg c r)) := rfl

theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ owns (c : Thread nD τ) scM9 fullShare (accs V c (n - 1) (by omega)).1 ∗ owns (c : Thread nD τ) scM10 fullShare (accs V c (n - 1) (by omega)).2) ∗ (∃ r, prngReg c r)) := by
  cases n with
  | zero => exact absurd rfl hz
  | succ n => rfl

/-! ## The region's proof data -/

/-- The arrays as the region finds them; after the body at point t each input's buffer at its block, the output's
    at its function of the accumulators after t (read only where k = 7); between points the accumulators at their
    contents; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay6 (iblk1 V c 3 t) (accs V c t.val t.isLt).2 (iblk1 V c 4 t) (accs V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = k1_pay6 (iblk1 V c 3 t) (accs V c t.val t.isLt).2 (iblk1 V c 4 t) (accs V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
/-- The body at any point: the closed forms of the two conditions say which case the point is in; the accumulators
    come in at what the point before left (at anything where k = 0) and go out at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  have hN : t.val < 256 := lt_of_lt_of_eq t.isLt (show cfg1.N = 256 from N_1)
  rw [show (dat1 V c).leavesExact 0 t = owns (c : Thread nD τ) (st1_0 t) fullShare ((dat1 V c).after 0 t) from by
      unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  by_cases h0 : t.val % 8 = 0
  · have h7 : ¬t.val % 8 = 7 := by omega
    have hc0 : cond1_0 (grid1.coords t) := (hcond1_0 t).mpr h0
    have hc1 : ¬cond1_1 (grid1.coords t) := fun h => h7 ((hcond1_1 t).mp h)
    rw [Dat.leavesExact_idle (dat1 V c) 5 t (idleAt1_5 t hc1) (noFlush1_5 t hc1)]
    rw [accs_first V c t h0]
    (try dsimp only)
    by_cases hz : t.val = 0
    · rw [PhiS_castSucc V c t, PhiS_zero V c _ _ hz, PhiA1_eq]
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, H5⟩
      iapply (run_first c Set.univ (grid1.coords t) _ _ _ _ _ _ _ _ _ _ _ _ _ _ _ _ hc0 hc1 (iblk1 V c 0 t) (iblk1 V c 1 t) (iblk1 V c 2 t) _)
      isplitl [H0]; · iexact H0
      isplitl [H1]; · iexact H1
      isplitl [H2]; · iexact H2
      isplitl [HS9]; · iexact HS9
      isplitl [HS10]; · iexact HS10
      iintro ⟨H0, H1, H2, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, H5⟩
      iapply (run_first c Set.univ (grid1.coords t) _ _ _ _ _ _ _ _ _ _ _ _ _ _ _ _ hc0 hc1 (iblk1 V c 0 t) (iblk1 V c 1 t) (iblk1 V c 2 t) _)
      isplitl [H0]; · iexact H0
      isplitl [H1]; · iexact H1
      isplitl [H2]; · iexact H2
      isplitl [HS9]; · iexists _; iexact HS9
      isplitl [HS10]; · iexists _; iexact HS10
      iintro ⟨H0, H1, H2, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun e => h0 (by rw [e])
    have hc0 : ¬cond1_0 (grid1.coords t) := fun h => h0 ((hcond1_0 t).mp h)
    rw [PhiS_castSucc V c t, PhiS_pos V c _ _ hz]
    by_cases h7 : t.val % 8 = 7
    · have hc1 : cond1_1 (grid1.coords t) := (hcond1_1 t).mpr h7
      rw [show (dat1 V c).leavesExact 5 t = owns (c : Thread nD τ) (st1_5 t) fullShare ((dat1 V c).after 5 t) from by
        unfold Dat.leavesExact; rw [liveAt1_5 t hc1], after1_5]
      rw [accs_next V c t h0]
      (try dsimp only)
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, ⟨%d5, H5⟩⟩
      iapply (run_last c Set.univ (grid1.coords t) _ _ _ _ _ _ _ _ _ _ _ _ _ _ _ _ hc0 hc1 (iblk1 V c 0 t) (iblk1 V c 1 t) (iblk1 V c 2 t) (iblk1 V c 3 t) (iblk1 V c 4 t) _ _ _)
      isplitl [H0]; · iexact H0
      isplitl [H1]; · iexact H1
      isplitl [H2]; · iexact H2
      isplitl [H3]; · iexact H3
      isplitl [H4]; · iexact H4
      isplitl [H5]; · iexists _; iexact H5
      isplitl [HS9]; · iexact HS9
      isplitl [HS10]; · iexact HS10
      iintro ⟨H0, H1, H2, H3, H4, H5, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond1_1 (grid1.coords t) := fun h => h7 ((hcond1_1 t).mp h)
      rw [Dat.leavesExact_idle (dat1 V c) 5 t (idleAt1_5 t hc1) (noFlush1_5 t hc1)]
      rw [accs_next V c t h0]
      (try dsimp only)
      iintro ⟨⟨⟨A1, A2, A3, A4, A5, A6, A7, A8, A9, A10, A11, HS9, HS10⟩, Hg⟩, Ho, ⟨%d0, H0⟩, ⟨%d1, H1⟩, ⟨%d2, H2⟩, ⟨%d3, H3⟩, ⟨%d4, H4⟩, H5⟩
      iapply (run_mid c Set.univ (grid1.coords t) _ _ _ _ _ _ _ _ _ _ _ _ _ _ _ _ hc0 hc1 (iblk1 V c 0 t) (iblk1 V c 1 t) (iblk1 V c 2 t) _ _ _)
      isplitl [H0]; · iexact H0
      isplitl [H1]; · iexact H1
      isplitl [H2]; · iexact H2
      isplitl [HS9]; · iexact HS9
      isplitl [HS10]; · iexact HS10
      iintro ⟨H0, H1, H2, HS9, HS10⟩
      isplitl [A1 A2 A3 A4 A5 A6 A7 A8 A9 A10 A11 HS9 HS10 Hg]
      · isplitr [Hg]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          isplitl [A10]; · iexact A10
          isplitl [A11]; · iexact A11
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      iexact H5

theorem body_obligation1 (c : Dev nD) : BodyObligation (dat1 (F := F) V c) (defs₀ (F := F)) Variants.none () Set.univ := fun t => by
  rw [bigSep_W1, bigSep_W1]
  exact sound_body1 V c t

/-- What the launch hands the region is what is kept before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the accumulators' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 256 := N_1; omega), PhiA1_eq]
  iintro ⟨⟨A1, A2, A3, A4, A5, A6, A7, A8, A9, A10, A11, HS9, HS10⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [HS9]; · iexists _; iexact HS9
    iexists _; iexact HS10
  iexact Hg

end Cert.Kernel.Hand

end
-- ==== Proof.RunAllK.lean ====
/-
  The whole run of the kernel program, at any float instance.

  The program is four stretches in order: the host lays the magnitudes [4096] out as a column [4096, 1]; the first
  kernel region computes the scale row and the narrowed copy of the dense weight; the host narrows the tokens to
  the short format; the second kernel region computes the output. Between two stretches every buffer that outlives
  a region holds known contents, computed stretch by stretch from the launch memory:

    W0  the launch memory,
    W1  after the column layout,
    W2  after the first region: its six arrays at what its write-backs leave, every other buffer as in W1,
    W3  after the narrowing of the tokens,
    W4  after the second region: its six arrays at what its write-backs leave, every other buffer as in W3.

  A host stretch changes only the buffer it writes; a region changes only its output arrays (an input array is
  never written back). So each of the five arguments is still at its launch contents in W4, and the result buffer
  holds in W4 the second region's output array after its last write-back. The run theorem says that every fair
  execution terminates with every such buffer at its W4 contents.
-/
import proofs.«145152_j41712722379292_2_alg».proof.Proof.NormRegionK
import proofs.«145152_j41712722379292_2_alg».proof.Proof.MainRegionK

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents between the stretches -/

/-- A core's buffers at launch. -/
abbrev W0 : Dev nD → Valuation τ sig (Elt F) := fun c b => (s₀ m ρ).mem ((c : Dev nD), b)
/-- After the column layout of the magnitudes: what the first region is entered from. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- After the first region: each of its six arrays at what the write-backs of all 16 points leave (an input array
    as entered), every other buffer as entered. -/
def W2 (c : Dev nD) : Valuation τ sig (Elt F) :=
  Pipeline.withArrays spec0 c (W1 m ρ c) fun w => (dat0 (V1 m ρ) c).arrAt w cfg0.N
/-- W2 at an array of the first region. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- W2 at a buffer that is no array of the first region. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
/-- At the first region's exit each of its arrays holds what the region leaves … -/
theorem hF0 (c : Dev nD) (w : Fin cfg0.W) : (dat0 (V1 m ρ) c).arrAt w cfg0.N = V2 m ρ c (Pipeline.arrRef spec0 w) :=
  (W2_arr m ρ c w).symm
/-- … and every other buffer what it held at entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the narrowing of the tokens: what the second region is entered from. -/
abbrev W3 : Dev nD → Valuation τ sig (Elt F) := fun c => StableHlo.after hostOps1 (W2 m ρ c)
/-- The same, read at the TensorCore's references. -/
abbrev V3 : (c : Dev nD) → (b : Ref sig .tc) → Buf (Elt F) ((c : Thread nD τ).loc b) := fun c b => W3 m ρ c b

/-! ## What a host stretch leaves alone -/

/-- The column layout writes main_v0 only. -/
theorem W1_of_ne (c : Dev nD) (b : Ref sig .tc) (hb : b ≠ main_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))
/-- The narrowing of the tokens writes main_v2 only. -/
theorem W3_of_ne (c : Dev nD) (b : Ref sig .tc) (hb : b ≠ main_v2) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne hb))

/-- After the second region: each of its six arrays at what the write-backs of all 256 points leave (an input array
    as entered), every other buffer as entered. -/
def W4 (c : Dev nD) : Valuation τ sig (Elt F) :=
  Pipeline.withArrays spec1 c (W3 m ρ c) fun w => (dat1 (V3 m ρ) c).arrAt w cfg1.N
/-- W4 at an array of the second region. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- W4 at a buffer that is no array of the second region. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same, read at the TensorCore's references. -/
abbrev V4 : (c : Dev nD) → (b : Ref sig .tc) → Buf (Elt F) ((c : Thread nD τ).loc b) := fun c b => W4 m ρ c b
/-- At the second region's exit each of its arrays holds what the region leaves … -/
theorem hF1 (c : Dev nD) (w : Fin cfg1.W) : (dat1 (V3 m ρ) c).arrAt w cfg1.N = V4 m ρ c (Pipeline.arrRef spec1 w) :=
  (W4_arr m ρ c w).symm
/-- … and every other buffer what it held at entry. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The arguments end as launched, and the result is the second region's output array

No host stretch writes an argument; a region reads an argument through an input window (whose array is never
written back) or does not touch it. So W4 at an argument walks back, stretch by stretch, to the launch memory. -/

/-- The tokens: no array of either region. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of_ne m ρ c main_arg0 (by decide)
    _ = m ((c : Thread nD τ).loc main_arg0) := rfl

/-- The first low-rank factor: input window 2 of both regions. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 2).trans (((dat1 (V3 m ρ) c).arrAt_in 2 rfl _).trans (A_eq1 (V3 m ρ) c 2))
    _ = W2 m ρ c (Proc.devRef .tc main_arg1) := W3_of_ne m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := W1_of_ne m ρ c main_arg1 (by decide)
    _ = m ((c : Thread nD τ).loc main_arg1) := rfl

/-- The second low-rank factor: input window 3 of the second region, input window 1 of the first. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := (W4_arr m ρ c 3).trans (((dat1 (V3 m ρ) c).arrAt_in 3 rfl _).trans (A_eq1 (V3 m ρ) c 3))
    _ = W2 m ρ c (Proc.devRef .tc main_arg2) := W3_of_ne m ρ c main_arg2 (by decide)
    _ = W1 m ρ c (Proc.devRef .tc main_arg2) := (W2_arr m ρ c 1).trans (((dat0 (V1 m ρ) c).arrAt_in 1 rfl _).trans (A_eq0 (V1 m ρ) c 1))
    _ = W0 m ρ c (Proc.devRef .tc main_arg2) := W1_of_ne m ρ c main_arg2 (by decide)
    _ = m ((c : Thread nD τ).loc main_arg2) := rfl

/-- The dense weight: no array of the second region, input window 0 of the first. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 0).trans (((dat0 (V1 m ρ) c).arrAt_in 0 rfl _).trans (A_eq0 (V1 m ρ) c 0))
    _ = W0 m ρ c (Proc.devRef .tc main_arg3) := W1_of_ne m ρ c main_arg3 (by decide)
    _ = m ((c : Thread nD τ).loc main_arg3) := rfl

/-- The magnitudes: no array of either region (the first region reads their column layout, another buffer). -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of_ne m ρ c main_arg4 (by decide)
    _ = m ((c : Thread nD τ).loc main_arg4) := rfl

/-- The result buffer ends at the second region's output array after the write-backs of all its points. -/
theorem W4_out (c : Dev nD) : W4 m ρ c (Proc.devRef .tc main_v3) = (dat1 (V3 m ρ) c).arrAt 5 cfg1.N :=
  W4_arr m ρ c 5

/-! ## What each region finds in its arrays

The first region is entered from W1: the arguments as launched, and the column layout of the magnitudes. The second
is entered from W3: the narrowed tokens, the first region's two output arrays as it left them, and the two low-rank
factors as launched. -/

/-- At the first region's entry the tokens are as launched. -/
theorem V1_arg0 (c : Dev nD) : V1 m ρ c main_arg0 = m ((c : Thread nD τ).loc main_arg0) := W1_of_ne m ρ c main_arg0 (by decide)
/-- At the first region's entry the first low-rank factor is as launched. -/
theorem V1_arg1 (c : Dev nD) : V1 m ρ c main_arg1 = m ((c : Thread nD τ).loc main_arg1) := W1_of_ne m ρ c main_arg1 (by decide)
/-- At the first region's entry the second low-rank factor is as launched. -/
theorem V1_arg2 (c : Dev nD) : V1 m ρ c main_arg2 = m ((c : Thread nD τ).loc main_arg2) := W1_of_ne m ρ c main_arg2 (by decide)
/-- At the first region's entry the dense weight is as launched. -/
theorem V1_arg3 (c : Dev nD) : V1 m ρ c main_arg3 = m ((c : Thread nD τ).loc main_arg3) := W1_of_ne m ρ c main_arg3 (by decide)
/-- At the first region's entry the magnitudes are as launched. -/
theorem V1_arg4 (c : Dev nD) : V1 m ρ c main_arg4 = m ((c : Thread nD τ).loc main_arg4) := W1_of_ne m ρ c main_arg4 (by decide)

/-- At the first region's entry main_v0 holds the launched magnitudes [4096] laid out in row-major order as a
    column [4096, 1]. -/
theorem V1_v0 (c : Dev nD) :
    V1 m ρ c main_v0 = shapeCast S4096x1 (m ((c : Thread nD τ).loc main_arg4)) shapeCasts_S4096_S4096x1 := by
  show StableHlo.after hostOps0 (W0 m ρ c) (Proc.devRef .tc main_v0) = _
  after_results; rfl

/-- At the second region's entry main_v2 holds the launched tokens narrowed to the short format. -/
theorem V3_v2 (c : Dev nD) :
    V3 m ρ c main_v2 = truncf .bf16 (m ((c : Thread nD τ).loc main_arg0)) bitsLt_bf16_f32 := by
  have h0 : W2 m ρ c (Proc.devRef .tc main_arg0) = m ((c : Thread nD τ).loc main_arg0) :=
    (W2_of_ne m ρ c main_arg0 (by decide)).trans (W1_of_ne m ρ c main_arg0 (by decide))
  show StableHlo.after hostOps1 (W2 m ρ c) (Proc.devRef .tc main_v2) = _
  after_results
  rw [h0]

/-- At the second region's entry the scale row is the first region's output array 4 after all its write-backs. -/
theorem V3_v1_0 (c : Dev nD) : V3 m ρ c main_v1_0 = (dat0 (V1 m ρ) c).arrAt 4 cfg0.N :=
  (W3_of_ne m ρ c main_v1_0 (by decide)).trans (W2_arr m ρ c 4)
/-- At the second region's entry the narrowed dense weight is the first region's output array 5 after all its
    write-backs. -/
theorem V3_v1_1 (c : Dev nD) : V3 m ρ c main_v1_1 = (dat0 (V1 m ρ) c).arrAt 5 cfg0.N :=
  (W3_of_ne m ρ c main_v1_1 (by decide)).trans (W2_arr m ρ c 5)
/-- At the second region's entry the first low-rank factor is as launched (the first region only read it). -/
theorem V3_arg1 (c : Dev nD) : V3 m ρ c main_arg1 = m ((c : Thread nD τ).loc main_arg1) :=
  (W3_of_ne m ρ c main_arg1 (by decide)).trans <|
    ((W2_arr m ρ c 2).trans (((dat0 (V1 m ρ) c).arrAt_in 2 rfl _).trans (A_eq0 (V1 m ρ) c 2))).trans (V1_arg1 m ρ c)
/-- At the second region's entry the second low-rank factor is as launched (the first region only read it). -/
theorem V3_arg2 (c : Dev nD) : V3 m ρ c main_arg2 = m ((c : Thread nD τ).loc main_arg2) :=
  (W3_of_ne m ρ c main_arg2 (by decide)).trans <|
    ((W2_arr m ρ c 1).trans (((dat0 (V1 m ρ) c).arrAt_in 1 rfl _).trans (A_eq0 (V1 m ρ) c 1))).trans (V1_arg2 m ρ c)

/-! ## The regions' proof data, and what a core holds between two stretches -/

/-- The admissible contents of the prefetched tables: neither region has a table. -/
abbrev adm : (p : Fin 2) → (pcfgs (F := F) p).Adm := fun p => (cfgs p).toPCfg_adm
/-- Each region's proof data at the contents the region is entered from (a literal match on the region's number). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What a core holds beside its buffers between two stretches: its generator register at some state, and it owes
    nothing. -/
abbrev R (c : Dev nD) : sProp 𝕄 := iprop((∃ r, prngReg c r) ∗ ∃ W, owes (c : Thread nD τ) (0 : CellTallies nD τ sig Unit) W)
/-- A host stretch run from the contents W of the buffers that outlive a region: it leaves them at the stretch's
    effect on W, the rest of the core's state untouched. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The column layout allocates no buffer. -/
theorem hostOps0_fresh : (hostOps0 : List (HloOp τ sig (Elt F))).Forall fun op => op.fresh = ∅ := by
  simp only [List.Forall]; repeat' constructor
/-- The narrowing of the tokens allocates no buffer. -/
theorem hostOps1_fresh : (hostOps1 : List (HloOp τ sig (Elt F))).Forall fun op => op.fresh = ∅ := by
  simp only [List.Forall]; repeat' constructor
/-- A buffer that outlives a region is among those a core holds between two stretches. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the end, the owing apart: every buffer that outlives a region at its W4 contents, the
    generator register at some state. -/
abbrev Tₙ (c : Dev nD) : sProp 𝕄 := iprop(StableHlo.held (c : Thread nD τ) (Pipeline.ucRefs τ sig) (W4 m ρ c) ∗ ∃ r, prngReg c r)

/-! ## The two regions as stretches of the run -/

set_option backward.isDefEq.respectTransparency.types false in
/-- The first region: entered with the buffers at W1, left with them at W2. At entry its six arrays are taken out
    of the buffers the core holds; at exit they are put back at what the write-backs leave. The generator register
    goes into the region's invariant (with the scratch space no window stages) and comes back; nothing is owed; the
    kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with the buffers at W3, left with them at W4 (what the run ends with). As for the
    first region, except that its invariant depends on the point (it carries two scratch accumulators from point to
    point): at the first point the invariant follows from the scratch space at any contents beside the generator
    register, and at the last point it gives both back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hA : iprop((∃ r, prngReg c r) ∗ Pipeline.prefHeld (pcfgs (F := F) 1).pre c (fun _ => fullShare) (adm (F := F) 1).1
        ∗ Pipeline.scopedRest (Pipeline.pin (pcfgs (F := F)) adm 1).spec c) ⊢ (Pipeline.ΦA spec1 c : sProp 𝕄) := by
      unfold Pipeline.ΦA
      iintro ⟨Hp, -, Hr⟩
      isplitl [Hr]; · iexact Hr
      iexact Hp
    exact hA.trans (hin1 (V3 m ρ) c)
  hout c := by
    rw [Pipeline.ownSems0_none]
    have hA : (Pipeline.ΦA spec1 c : sProp 𝕄) ⊢ iprop((∃ r, prngReg c r) ∗ emp
        ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans hA
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as its four stretches, and the run -/

/-- The four stretches in order, each host stretch from the contents it starts at. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of its four stretches. -/
theorem main_run (c : Dev nD) : main (F := F) c = Pipeline.Seg.run (segs m ρ) := (main_chain c).trans (by chain_rfl)

set_option backward.isDefEq.respectTransparency.types false in
/-- THE RUN. From any memory with zero counters, every weakly fair execution of the program on the TensorCores
    terminates, nothing faulting, and in every final state each buffer that outlives a region holds its W4
    contents: the launch deals each core its buffers at the launch memory W0, the four stretches carry them to W4,
    and the last state is read against the final memory. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

end Cert.Kernel.Hand

end
-- ==== Proof.Spec.lean ====
/-
  The function both programs compute, written once over the whole argument arrays, on the extended reals.

  With x : [8192, 4096] tokens, a : [16, 4096] and b : [4096, 16] the two low-rank factors, w : [4096, 4096]
  the dense weight and g : [4096] the magnitudes:

    rownorm j  = sqrt (sum over k of (w[j,k] + 2 * (sum over r of b[j,r] * a[r,k]))^2)
    scale j    = g[j] / rownorm j
    dense i j  = sum over k of x[i,k] * w[j,k]
    low i r    = sum over k of x[i,k] * a[r,k]
    out i j    = (scale j - 1) * dense i j + scale j * (sum over r of low i r * b[j,r]) * 2

  The literals 2 and 1 are kept as the binary32 words the programs print.
-/
import Idealize.ShloMosaic.PureOps.Ideal
import Idealize.ShloMosaic.Lib.ValueIdx

noncomputable section

open scoped BigOperators

namespace Cert.Spec

open Idealize.ShloMosaic Idealize.ShloMosaic.ValueIdx

/-- The literal 2.0 as both programs print it. -/
def two : EReal := Ideal.ofBits .f32 0x40000000#32
/-- The literal 1.0 as both programs print it. -/
def one : EReal := Ideal.ofBits .f32 0x3F800000#32

/-- Entry (j, k) of the combined weight w + 2 * (b a). -/
def combined (a : (⟨2, ![16, 4096]⟩ : Shape).Idx → EReal) (b : (⟨2, ![4096, 16]⟩ : Shape).Idx → EReal)
    (w : (⟨2, ![4096, 4096]⟩ : Shape).Idx → EReal) (j k : Fin 4096) : EReal :=
  w (ix2 j k) + two * ∑ r : Fin 16, b (ix2 j r) * a (ix2 r k)

/-- The magnitude of output feature j over the norm of row j of the combined weight. -/
def scale (a : (⟨2, ![16, 4096]⟩ : Shape).Idx → EReal) (b : (⟨2, ![4096, 16]⟩ : Shape).Idx → EReal)
    (w : (⟨2, ![4096, 4096]⟩ : Shape).Idx → EReal) (g : (⟨1, ![4096]⟩ : Shape).Idx → EReal) (j : Fin 4096) : EReal :=
  Ideal.div (g (ix1 j)) (Ideal.sqrt (∑ k : Fin 4096, combined a b w j k * combined a b w j k))

/-- The dense product x wᵀ at (i, j). -/
def dense (x : (⟨2, ![8192, 4096]⟩ : Shape).Idx → EReal) (w : (⟨2, ![4096, 4096]⟩ : Shape).Idx → EReal)
    (i : Fin 8192) (j : Fin 4096) : EReal :=
  ∑ k : Fin 4096, x (ix2 i k) * w (ix2 j k)

/-- The low-rank projection x aᵀ at (i, r). -/
def low (x : (⟨2, ![8192, 4096]⟩ : Shape).Idx → EReal) (a : (⟨2, ![16, 4096]⟩ : Shape).Idx → EReal)
    (i : Fin 8192) (r : Fin 16) : EReal :=
  ∑ k : Fin 4096, x (ix2 i k) * a (ix2 r k)

/-- The layer's output at (i, j). -/
def outAt (x : (⟨2, ![8192, 4096]⟩ : Shape).Idx → EReal) (a : (⟨2, ![16, 4096]⟩ : Shape).Idx → EReal)
    (b : (⟨2, ![4096, 16]⟩ : Shape).Idx → EReal) (w : (⟨2, ![4096, 4096]⟩ : Shape).Idx → EReal)
    (g : (⟨1, ![4096]⟩ : Shape).Idx → EReal) (i : Fin 8192) (j : Fin 4096) : EReal :=
  (scale a b w g j - one) * dense x w i j + scale a b w g j * (∑ r : Fin 16, low x a i r * b (ix2 j r)) * two

/-- The layer's output as one array. -/
def out (x : (⟨2, ![8192, 4096]⟩ : Shape).Idx → EReal) (a : (⟨2, ![16, 4096]⟩ : Shape).Idx → EReal)
    (b : (⟨2, ![4096, 16]⟩ : Shape).Idx → EReal) (w : (⟨2, ![4096, 4096]⟩ : Shape).Idx → EReal)
    (g : (⟨1, ![4096]⟩ : Shape).Idx → EReal) : (⟨2, ![8192, 4096]⟩ : Shape).Idx → EReal :=
  fun i => outAt x a b w g (i 0) (i 1)

end Cert.Spec

end
-- ==== Proof.RefSpec.lean ====
/-
  The reference program computes the layer's output.

  The reference is a straight line of array operations over x : [8192, 4096], a : [16, 4096], b : [4096, 16],
  w : [4096, 4096] and g : [4096]:

    lora      = b a                              (a product over the rank index r)
    combined  = w + 2 * lora
    rownorm   = sqrt (sum over k of combined^2)  (a sum along each row, started at 0)
    scale     = g / rownorm, laid out as a row [1, 4096] and repeated down the 8192 token rows
    out       = (scale - 1) * (x wᵀ) + scale * ((x aᵀ) bᵀ) * 2

  Read at one output position (i, j), every layout operation (transpose, broadcast) only renames the position it
  reads, every product of arrays is a finite sum of products of entries, and the row sum is its zero start plus a
  finite sum. Reading the operations from the last to the first therefore gives, at (i, j), exactly the expression
  Cert.Spec.outAt x a b w g i j; no algebraic law beyond 0 + s = s is used.
-/
import proofs.«145152_j41712722379292_2_alg».proof.Proof.Gen.ReferenceIdeal.Read
import proofs.«145152_j41712722379292_2_alg».proof.Proof.Spec

noncomputable section

open scoped BigOperators

namespace Cert.ReferenceIdeal.RefValue

open Cert.ReferenceIdeal Cert.ReferenceIdeal.Read Idealize.ShloMosaic Idealize.ShloMosaic.ValueIdx Idealize.SL.Sem

/-! ## The positions the layout operations and the products read -/

/-- Entry (j, k) of b a reads b at (j, r) … -/
theorem lidx_v0 (j k : Fin 4096) (r : Fin 16) : lidx_main_v0 (ix2 j k) r = ix2 j r := by
  funext d; match d with | ⟨0, _⟩ => rfl | ⟨1, _⟩ => rfl
/-- … and a at (r, k). -/
theorem ridx_v0 (j k : Fin 4096) (r : Fin 16) : ridx_main_v0 (ix2 j k) r = ix2 r k := by
  funext d; match d with | ⟨0, _⟩ => rfl | ⟨1, _⟩ => rfl
/-- The sum along row j reads the row's entries (j, k). -/
theorem idx_v5 (j k : Fin 4096) : idx_main_v5 (ix1 j) k = ix2 j k := by
  funext d; match d with | ⟨0, _⟩ => rfl | ⟨1, _⟩ => rfl
/-- Position (0, j) of the row layout [1, 4096] reads position j of the vector. -/
theorem idx_v8 (z : Fin 1) (j : Fin 4096) : idx_main_v8 (ix2 z j) = ix1 j := by
  funext d; match d with | ⟨0, _⟩ => rfl
/-- The transpose of a at (k, r) reads a at (r, k). -/
theorem idx_v9 (k : Fin 4096) (r : Fin 16) : idx_main_v9 (ix2 k r) = ix2 r k := by
  funext d; match d with | ⟨0, _⟩ => rfl | ⟨1, _⟩ => rfl
/-- Entry (i, r) of x aᵀ reads x at (i, k) … -/
theorem lidx_v10 (i : Fin 8192) (r : Fin 16) (k : Fin 4096) : lidx_main_v10 (ix2 i r) k = ix2 i k := by
  funext d; match d with | ⟨0, _⟩ => rfl | ⟨1, _⟩ => rfl
/-- … and aᵀ at (k, r). -/
theorem ridx_v10 (i : Fin 8192) (r : Fin 16) (k : Fin 4096) : ridx_main_v10 (ix2 i r) k = ix2 k r := by
  funext d; match d with | ⟨0, _⟩ => rfl | ⟨1, _⟩ => rfl
/-- The transpose of b at (r, j) reads b at (j, r). -/
theorem idx_v11 (r : Fin 16) (j : Fin 4096) : idx_main_v11 (ix2 r j) = ix2 j r := by
  funext d; match d with | ⟨0, _⟩ => rfl | ⟨1, _⟩ => rfl
/-- Entry (i, j) of (x aᵀ) bᵀ reads x aᵀ at (i, r) … -/
theorem lidx_v12 (i : Fin 8192) (j : Fin 4096) (r : Fin 16) : lidx_main_v12 (ix2 i j) r = ix2 i r := by
  funext d; match d with | ⟨0, _⟩ => rfl | ⟨1, _⟩ => rfl
/-- … and bᵀ at (r, j). -/
theorem ridx_v12 (i : Fin 8192) (j : Fin 4096) (r : Fin 16) : ridx_main_v12 (ix2 i j) r = ix2 r j := by
  funext d; match d with | ⟨0, _⟩ => rfl | ⟨1, _⟩ => rfl
/-- The transpose of w at (k, j) reads w at (j, k). -/
theorem idx_v13 (k j : Fin 4096) : idx_main_v13 (ix2 k j) = ix2 j k := by
  funext d; match d with | ⟨0, _⟩ => rfl | ⟨1, _⟩ => rfl
/-- Entry (i, j) of x wᵀ reads x at (i, k) … -/
theorem lidx_v14 (i : Fin 8192) (j k : Fin 4096) : lidx_main_v14 (ix2 i j) k = ix2 i k := by
  funext d; match d with | ⟨0, _⟩ => rfl | ⟨1, _⟩ => rfl
/-- … and wᵀ at (k, j). -/
theorem ridx_v14 (i : Fin 8192) (j k : Fin 4096) : ridx_main_v14 (ix2 i j) k = ix2 k j := by
  funext d; match d with | ⟨0, _⟩ => rfl | ⟨1, _⟩ => rfl
/-- Repeating a row [1, 4096] down the token rows: position (i, j) reads position (0, j). -/
theorem idx_v17 (i : Fin 8192) (j : Fin 4096) : idx_main_v17 (ix2 i j) = ix2 (⟨0, Nat.one_pos⟩ : Fin 1) j := by
  funext d; match d with | ⟨0, _⟩ => rfl | ⟨1, _⟩ => rfl
/-- The same for the second repeated row. -/
theorem idx_v19 (i : Fin 8192) (j : Fin 4096) : idx_main_v19 (ix2 i j) = ix2 (⟨0, Nat.one_pos⟩ : Fin 1) j := by
  funext d; match d with | ⟨0, _⟩ => rfl | ⟨1, _⟩ => rfl

/-! ## The stages at a position -/

section Stages

variable (x : (⟨2, ![8192, 4096]⟩ : Shape).Idx → EReal) (a : (⟨2, ![16, 4096]⟩ : Shape).Idx → EReal)
  (b : (⟨2, ![4096, 16]⟩ : Shape).Idx → EReal) (w : (⟨2, ![4096, 4096]⟩ : Shape).Idx → EReal)
  (g : (⟨1, ![4096]⟩ : Shape).Idx → EReal)

/-- The product b a at (j, k) is the sum over r of b[j,r] * a[r,k]. -/
theorem v0_at (j k : Fin 4096) :
    val_main_v0 (F := Ideal) a b (ix2 j k) = ∑ r : Fin 16, b (ix2 j r) * a (ix2 r k) := by
  refine (val_main_v0_apply a b (ix2 j k)).trans ?_
  refine Finset.sum_congr rfl fun r _ => ?_
  rw [lidx_v0, ridx_v0]

/-- The combined weight w + 2 * (b a) at (j, k). -/
theorem v3_at (j k : Fin 4096) :
    val_main_v3 (F := Ideal) a b w (ix2 j k) = Cert.Spec.combined a b w j k := by
  refine (val_main_v3_apply (F := Ideal) a b w (ix2 j k)).trans ?_
  rw [val_main_v2_apply, val_main_v1_apply, val_main_cst_apply, v0_at]
  rfl

/-- The row sum of squares of the combined weight: the zero start plus the sum over k. -/
theorem v5_at (j : Fin 4096) :
    val_main_v5 (F := Ideal) a b w (ix1 j)
      = ∑ k : Fin 4096, Cert.Spec.combined a b w j k * Cert.Spec.combined a b w j k := by
  refine (val_main_v5_apply a b w (ix1 j)).trans ?_
  rw [val_main_cst_0_apply, Ideal.ofBits_def, Ideal.ofBits_zero_f32, zero_add]
  refine Finset.sum_congr rfl fun k _ => ?_
  rw [idx_v5, val_main_v4_apply, v3_at]
  rfl

/-- The scale g[j] / rownorm j, read at (0, j) of its row layout. -/
theorem v8_at (z : Fin 1) (j : Fin 4096) :
    val_main_v8 (F := Ideal) a b w g (ix2 z j) = Cert.Spec.scale a b w g j := by
  refine (val_main_v8_apply (F := Ideal) a b w g (ix2 z j)).trans ?_
  rw [idx_v8, val_main_v7_apply, val_main_v6_apply, v5_at]
  rfl

/-- The dense product x wᵀ at (i, j). -/
theorem v14_at (i : Fin 8192) (j : Fin 4096) :
    val_main_v14 (F := Ideal) x w (ix2 i j) = Cert.Spec.dense x w i j := by
  refine (val_main_v14_apply x w (ix2 i j)).trans ?_
  refine Finset.sum_congr rfl fun k _ => ?_
  rw [lidx_v14, ridx_v14, val_main_v13_apply, idx_v13]

/-- The low-rank projection x aᵀ at (i, r). -/
theorem v10_at (i : Fin 8192) (r : Fin 16) :
    val_main_v10 (F := Ideal) x a (ix2 i r) = Cert.Spec.low x a i r := by
  refine (val_main_v10_apply x a (ix2 i r)).trans ?_
  refine Finset.sum_congr rfl fun k _ => ?_
  rw [lidx_v10, ridx_v10, val_main_v9_apply, idx_v9]

/-- The low-rank path (x aᵀ) bᵀ at (i, j). -/
theorem v12_at (i : Fin 8192) (j : Fin 4096) :
    val_main_v12 (F := Ideal) x a b (ix2 i j) = ∑ r : Fin 16, Cert.Spec.low x a i r * b (ix2 j r) := by
  refine (val_main_v12_apply x a b (ix2 i j)).trans ?_
  refine Finset.sum_congr rfl fun r _ => ?_
  rw [lidx_v12, ridx_v12, v10_at, val_main_v11_apply, idx_v11]

/-- The reference's result at (i, j) is the layer's output there. -/
theorem v23_at (i : Fin 8192) (j : Fin 4096) :
    val_main_v23 (F := Ideal) x a b w g (ix2 i j) = Cert.Spec.outAt x a b w g i j := by
  refine (val_main_v23_apply (F := Ideal) x a b w g (ix2 i j)).trans ?_
  rw [val_main_v18_apply, val_main_v17_apply, idx_v17, val_main_v16_apply, v8_at, val_main_v15_apply,
    val_main_cst_1_apply, v14_at, val_main_v22_apply, val_main_v20_apply, val_main_v19_apply, idx_v19, v8_at,
    v12_at, val_main_v21_apply, val_main_cst_2_apply]
  rfl

/-- The reference's result, as one array, is the layer's output. -/
theorem v23_eq_out : val_main_v23 (F := Ideal) x a b w g = Cert.Spec.out x a b w g := by
  funext i
  rw [eq_ix2 i]
  exact v23_at x a b w g (i 0) (i 1)

end Stages

/-! ## The run -/

/-- Every weakly fair execution of the reference terminates; on each device its result is the layer's output
    Cert.Spec.out of the five argument arrays as they were at the start, and the arguments are unchanged. -/
theorem run_spec (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, ρ'⟩ (fun r => ∀ c : Dev Cert.ReferenceIdeal.nD,
      r.2.mem ((c.tc : Thread Cert.ReferenceIdeal.nD Cert.ReferenceIdeal.τ).loc Cert.ReferenceIdeal.main_v23)
        = Cert.Spec.out (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)) :=
  (θ_run (Cert.ReferenceIdeal.defs (F := Ideal)) _ _).mono
    (fun _ h c => ⟨(h c).1.trans ((val_main_v23_eq (F := Ideal) _ _ _ _ _).trans (v23_eq_out _ _ _ _ _)), (h c).2⟩)
    (Cert.ReferenceIdeal.Value.run (F := Ideal) m' ρ')

end Cert.ReferenceIdeal.RefValue

end
-- ==== Proof.LibPlainDot.lean ====
/-
  A plain matrix product read at an index.

  For the dimension numbers of an `M×K` by `K×N` product (`DotDims.plain`: the left operand contracted on its second
  axis, the right one on its first, no batch axis), the sum over the contraction index of the operands' products at
  result index `(i, j)` is `Σ_k l[i,k]·r[k,j]` over `k : Fin K`. Stated for the sum itself, so that it serves a
  kernel's matrix product into a zero accumulator and a host's `dot_general` alike.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction shape of a plain product has one axis. -/
theorem plain_contr_rank (M K N : Nat) : (DotDims.plain M K N).contr.rank = 1 := rfl

/-- The left operand's index at result `(i, j)` and contraction position `k` is `(i, k)`. -/
theorem plain_lhsIdx (M K N : Nat) (i : Fin M) (j : Fin N) (k : Fin K) :
    (DotDims.plain M K N).lhsIdx (ix2 i j) ((contrEquiv1 (DotDims.plain M K N) K rfl rfl).symm k) = ix2 i k := by
  funext a
  refine Fin.ext ?_
  match a with
  | ⟨0, _⟩ => rfl
  | ⟨1, _⟩ =>
    show (((contrEquiv1 (DotDims.plain M K N) K rfl rfl).symm k) ⟨0, (Nat.one_pos : 0 < 1)⟩ : ℕ) = k.val
    exact contrEquiv1_symm_val (DotDims.plain M K N) K rfl rfl k

/-- The right operand's index at result `(i, j)` and contraction position `k` is `(k, j)`. -/
theorem plain_rhsIdx (M K N : Nat) (i : Fin M) (j : Fin N) (k : Fin K) :
    (DotDims.plain M K N).rhsIdx (ix2 i j) ((contrEquiv1 (DotDims.plain M K N) K rfl rfl).symm k) = ix2 k j := by
  funext a
  refine Fin.ext ?_
  match a with
  | ⟨0, _⟩ =>
    show (((contrEquiv1 (DotDims.plain M K N) K rfl rfl).symm k) ⟨0, (Nat.one_pos : 0 < 1)⟩ : ℕ) = k.val
    exact contrEquiv1_symm_val (DotDims.plain M K N) K rfl rfl k
  | ⟨1, _⟩ => rfl

/-- THE PLAIN PRODUCT'S SUM at `(i, j)`: over `k : Fin K`, of `l[i,k]·r[k,j]`. -/
theorem plain_sum (M K N : Nat) (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  exact Finset.sum_congr rfl fun k _ => by rw [plain_lhsIdx, plain_rhsIdx]

/-- A host `dot_general` with the plain dimension numbers, at the ideal values, read at `(i, j)`. -/
theorem plain_dotGeneral_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    Host.dotGeneral (DotDims.plain M K N) prec l r (ix2 i j) = ∑ k : Fin K, l (ix2 i k) * r (ix2 k j) :=
  (Ideal.dotGeneral_apply (DotDims.plain M K N) prec _ l r (ix2 i j)).trans (plain_sum M K N l r i j)

/-- A kernel's matrix product with the plain dimension numbers into the zero splat, at the ideal values, read at `(i, j)`. -/
theorem plain_matmul_zero_apply (M K N : Nat) {φ₁ φ₂ : FTy} (prec : Option ContractPrecision)
    (l : FVec Ideal ⟨2, ![M, K]⟩ φ₁) (r : FVec Ideal ⟨2, ![K, N]⟩ φ₂) (i : Fin M) (j : Fin N) :
    matmul (DotDims.plain M K N) prec l r (constant ⟨2, ![M, N]⟩ .f32 0x00000000#32) (ix2 i j)
      = ∑ k : Fin K, l (ix2 i k) * r (ix2 k j) :=
  (Ideal.matmul_constant_zero_apply (DotDims.plain M K N) prec l r (ix2 i j)).trans (plain_sum M K N l r i j)

end Cert.Lib

end
-- ==== Proof.PayMain.lean ====
/-
  The second program's stored values read at an index, on the extended reals.

  Each grid step of the second program stores three kinds of value:
  * at the first step of a row of steps, the zero arrays that start the two running sums;
  * at every step, the running dense sum s[p,q] + Σ_k x[p,k]·w[q,k] over the step's 512 columns, and the running
    low-rank sum s[p,r] + Σ_k x[p,k]·a[r,k];
  * at the last step, the block of the output
      (sc[q] − 1)·s9[p,q] + sc[q]·(Σ_r s10[p,r]·b[q,r])·2.
  A change of float format is the identity on the extended reals, a product into a zero accumulator is the plain sum
  over the contracted index, and each transposed right operand is read back at the swapped coordinates.
-/
import proofs.«145152_j41712722379292_2_alg».proof.Proof.Gen.KernelIdeal.Skeleton
import proofs.«145152_j41712722379292_2_alg».proof.Proof.Spec
import proofs.«145152_j41712722379292_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The three products of the second program have the plain dimension numbers. -/
theorem dot_dense_eq : dot_S1024x512_S512x1024_S1024x1024_1_0_0_1_n_n = DotDims.plain 1024 512 1024 := rfl
theorem dot_low_eq : dot_S1024x512_S512x16_S1024x16_1_0_0_1_n_n = DotDims.plain 1024 512 16 := rfl
theorem dot_up_eq : dot_S1024x16_S16x1024_S1024x1024_1_0_0_1_n_n = DotDims.plain 1024 16 1024 := rfl

/-- The zero array that starts the dense running sum. -/
theorem zero_big (i : S1024x1024.Idx) : k1_pay1 (F := Ideal) i = 0 := by
  unfold k1_pay1
  rw [shapeCast_self]
  exact Ideal.ofBits_zero_f32

/-- The zero array that starts the low-rank running sum. -/
theorem zero_small (i : S1024x16.Idx) : k1_pay2 (F := Ideal) i = 0 := by
  unfold k1_pay2
  rw [shapeCast_self]
  exact Ideal.ofBits_zero_f32

/-- One step of the dense running sum: the sum so far plus the step's 512 products x[p,k]·w[q,k]. -/
theorem acc_big (x : Vec Ideal S1024x512 .bf16) (bw : Vec Ideal S1024x512 .bf16) (s : Vec Ideal S1024x1024 .f32)
    (p q : Fin 1024) :
    k1_pay4 (F := Ideal) x bw s (ix2 p q) = s (ix2 p q) + ∑ k : Fin 512, x (ix2 p k) * bw (ix2 q k) := by
  unfold k1_pay4 k1_pay3
  rw [shapeCast_self, shapeCast_self, shapeCast_self, addf_apply, dot_dense_eq]
  refine congrArg (s (ix2 p q) + ·) ?_
  refine (Cert.Lib.plain_matmul_zero_apply 1024 512 1024 none _ _ p q).trans ?_
  exact Finset.sum_congr rfl fun k _ => by rw [transpose_ix2_apply]

/-- One step of the low-rank running sum: the sum so far plus the step's 512 products x[p,k]·a[r,k]. -/
theorem acc_small (x : Vec Ideal S1024x512 .bf16) (a : Vec Ideal S16x512 .f32) (s : Vec Ideal S1024x16 .f32)
    (p : Fin 1024) (r : Fin 16) :
    k1_pay5 (F := Ideal) x a s (ix2 p r) = s (ix2 p r) + ∑ k : Fin 512, x (ix2 p k) * a (ix2 r k) := by
  unfold k1_pay5 k1_pay3
  rw [shapeCast_self, shapeCast_self, addf_apply, dot_low_eq]
  refine congrArg (s (ix2 p r) + ·) ?_
  refine (Cert.Lib.plain_matmul_zero_apply 1024 512 16 none _ _ p r).trans ?_
  exact Finset.sum_congr rfl fun k _ => by rw [transpose_ix2_apply, truncf_apply]

/-- The output block: (sc[q] − 1)·s9[p,q] + sc[q]·(Σ_r s10[p,r]·b[q,r])·2. -/
theorem out_block (bB : Vec Ideal S1024x16 .f32) (s10 : Vec Ideal S1024x16 .f32) (sc : Vec Ideal S1x1024 .f32)
    (s9 : Vec Ideal S1024x1024 .f32) (p q : Fin 1024) :
    k1_pay6 (F := Ideal) bB s10 sc s9 (ix2 p q)
      = (sc (ix2 (0 : Fin 1) q) - Cert.Spec.one) * s9 (ix2 p q)
        + sc (ix2 (0 : Fin 1) q) * (∑ r : Fin 16, s10 (ix2 p r) * bB (ix2 q r)) * Cert.Spec.two := by
  unfold k1_pay6
  rw [shapeCast_self, addf_apply, mulf_apply, mulf_apply, mulf_apply, broadcast_apply,
    broadcastTo_1b_ab_apply, broadcastTo_1b_ab_apply, subf_apply, broadcast_apply, dot_up_eq]
  rw [Cert.Lib.plain_matmul_zero_apply 1024 16 1024 none _ _ p q]
  have e : (∑ k : Fin 16, (truncf .bf16 s10 bitsLt_bf16_f32 : FVec Ideal S1024x16 .bf16) (ix2 p k)
        * transpose S16x1024 [1, 0] (truncf .bf16 bB bitsLt_bf16_f32 : FVec Ideal S1024x16 .bf16)
            transposes_S1024x16_p1_0_S16x1024 (ix2 k q))
      = ∑ r : Fin 16, s10 (ix2 p r) * bB (ix2 q r) :=
    Finset.sum_congr rfl fun k _ => by rw [transpose_ix2_apply, truncf_apply, truncf_apply]
  rw [e]
  rfl

end Cert.KernelIdeal.Pay

end
-- ==== Proof.LibChunkPrefix.lean ====
/-
  Sums taken a chunk at a time.

  In an additive commutative monoid, let f be indexed by Fin K and let P be a chunk length. Write S(c) for the sum of
  f over the indices below c, stated as a sum over ALL of Fin K of the entries guarded by "k < c" (zero elsewhere).
  Then
    S(P·0) = 0,
    S(P·n) + Σ_{kk < P} f(P·n + kk) = S(P·(n+1))   whenever P·(n+1) ≤ K,
    S(P·n) = Σ_k f(k)                              whenever K ≤ P·n.
  So a sum over K = P·N indices accumulated in N chunks of P consecutive entries is the whole sum.
-/
import Mathlib.Algebra.BigOperators.Fin
import Mathlib.Tactic

open scoped BigOperators

namespace Cert.LibChunkPrefix

variable {M : Type*} [AddCommMonoid M]

/-- A family over `Fin K` continued by zero to all natural numbers. -/
def ext {K : ℕ} (f : Fin K → M) (k : ℕ) : M := if h : k < K then f ⟨k, h⟩ else 0

theorem ext_val {K : ℕ} (f : Fin K → M) (k : Fin K) : ext f k.val = f k := dif_pos k.isLt

theorem ext_of_lt {K : ℕ} (f : Fin K → M) (k : ℕ) (h : k < K) : ext f k = f ⟨k, h⟩ := dif_pos h

/-- The guarded sum over the whole index type is the sum of the first `c` entries. -/
theorem guarded_eq_range {K : ℕ} (f : Fin K → M) (c : ℕ) (hc : c ≤ K) :
    (∑ k : Fin K, if k.val < c then f k else 0) = ∑ k ∈ Finset.range c, ext f k := by
  have e : (fun k : Fin K => if k.val < c then f k else 0)
      = fun k : Fin K => (fun j : ℕ => if j < c then ext f j else 0) k.val :=
    funext fun k => by simp only [ext_val]
  rw [e, Fin.sum_univ_eq_sum_range (fun j : ℕ => if j < c then ext f j else 0) K, ← Finset.sum_filter]
  refine Finset.sum_congr ?_ fun _ _ => rfl
  ext j
  simp only [Finset.mem_filter, Finset.mem_range]
  omega

/-- Nothing has been added before the first chunk. -/
theorem prefix_zero {K : ℕ} (P : ℕ) (f : Fin K → M) :
    (∑ k : Fin K, if k.val < P * 0 then f k else 0) = 0 :=
  Finset.sum_eq_zero fun k _ => if_neg (by rw [Nat.mul_zero]; exact Nat.not_lt_zero _)

/-- Adding chunk `n` (the `P` entries from `P·n` on) to the sum of the entries below `P·n` gives the sum of the entries
    below `P·(n+1)`. -/
theorem prefix_step {K : ℕ} (P n : ℕ) (f : Fin K → M) (h : P * (n + 1) ≤ K) :
    (∑ k : Fin K, if k.val < P * n then f k else 0)
        + (∑ kk : Fin P, f ⟨P * n + kk.val,
            lt_of_lt_of_le (by have := kk.isLt; have : P * (n + 1) = P * n + P := Nat.mul_succ P n; omega) h⟩)
      = ∑ k : Fin K, if k.val < P * (n + 1) then f k else 0 := by
  have h0 : P * n ≤ K := le_trans (Nat.mul_le_mul_left P (Nat.le_succ n)) h
  have e : Finset.range (P * (n + 1)) = Finset.range (P * n + P) := congrArg Finset.range (Nat.mul_succ P n)
  rw [guarded_eq_range f _ h0, guarded_eq_range f _ h, e, Finset.sum_range_add]
  congr 1
  rw [← Fin.sum_univ_eq_sum_range (fun x => ext f (P * n + x)) P]
  exact Finset.sum_congr rfl fun kk _ => (ext_of_lt f _ _).symm

/-- Once the chunks reach the end, the guarded sum is the whole sum. -/
theorem prefix_all {K : ℕ} (P n : ℕ) (f : Fin K → M) (h : K ≤ P * n) :
    (∑ k : Fin K, if k.val < P * n then f k else 0) = ∑ k : Fin K, f k :=
  Finset.sum_congr rfl fun k _ => if_pos (lt_of_lt_of_le k.isLt h)

end Cert.LibChunkPrefix
-- ==== Proof.LibRowCol.lean ====
/-
  Two column forms read at an index.

  * An `[a, 1]` column transposed to a `[1, a]` row reads, at `(0, j)`, the column's entry `j`.
  * A sum of an `[a, 1]` column over its first axis, on the extended reals, is the sum of the column's entries.

  With a row spread down the rows and a per-row quantity cast to a column they read a per-column quantity spread over
  all rows, and a column of per-row sums added up.
-/
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.Lib

open Idealize.ShloMosaic Idealize.ShloMosaic.ValueIdx

variable {α : Type}

/-- An `[a, 1]` column transposed to a `[1, a]` row reads, at `(u, j)`, the operand at `(j, 0)`. -/
theorem transpose_a1_1a_apply {a : ℕ} (x : (⟨2, ![a, 1]⟩ : Shape).Idx → α)
    (h : (⟨2, ![a, 1]⟩ : Shape).Transposes [1, 0] ⟨2, ![1, a]⟩) (u : Fin 1) (j : Fin a) :
    transpose ⟨2, ![1, a]⟩ [1, 0] x h (ix2 u j) = x (ix2 j (0 : Fin 1)) := by
  refine transpose_apply [1, 0] x h (ix2 u j) (ix2 j (0 : Fin 1)) fun b => ?_
  match b with
  | ⟨0, _⟩ =>
    show (0 : ℕ) = u.val
    have := u.isLt; omega
  | ⟨1, _⟩ => rfl

/-- Over the one result index, the source index with `k` on the reduced first axis of a column is `(k, 0)`. -/
theorem lift_col {a : ℕ} (h : (⟨2, ![a, 1]⟩ : Shape).Reduces [0] ⟨1, ![1]⟩) (u : Fin 1) (k : Fin a) :
    h.lift (ix1 u) k = ix2 k (0 : Fin 1) := by
  funext c
  apply Fin.ext
  match c with
  | ⟨0, _⟩ => rfl
  | ⟨1, hc⟩ =>
    have h1 : ((h.lift (ix1 u) k) ⟨1, hc⟩).val < 1 := ((h.lift (ix1 u) k) ⟨1, hc⟩).isLt
    show ((h.lift (ix1 u) k) ⟨1, hc⟩).val = 0
    omega

/-- A column sum: the sum of the column's entries. -/
theorem multiReduction_add_col {a : ℕ} {φ : FTy} (X : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (u : Fin 1) :
    multiReduction .add [0] ⟨1, ![1]⟩ X acc h hφ hacc (ix1 u) = ∑ k : Fin a, X (ix2 k (0 : Fin 1)) := by
  refine (Ideal.multiReduction_add_single X acc h hφ hacc (ix1 u)).trans ?_
  exact Finset.sum_congr rfl fun k _ => congrArg X (lift_col h u k)

end Cert.Lib

end
-- ==== Proof.LibKeepdims.lean ====
/-
  Two column ("keepdims") layout forms read at an index.

  * An `[a]` array cast to `[a, 1]` reads, at `(i, u)`, the operand at `i`, whatever the unit coordinate `u`.
  * An `[a, 1]` array broadcast to `[a, b]` reads, at `(p, c)`, the operand's one entry of row `p`.

  Together they are how a per-row quantity (a row's maximum, a row's sum) is spread back over the row.
-/
import Idealize.ShloMosaic.Lib.Pipeline.Value
import Idealize.ShloMosaic.Lib.ValueIdx

noncomputable section

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowReduce.lean ====
/-
  A row's maximum and a row's sum, read at the row, on the extended reals.

  * A reduction of an `[a, b]` array over its second axis reads, at row `r`, the entries `(r, k)`, `k : Fin b`:
    a maximum as the fold of `max` from the starting value over them, a sum as their sum.
  * A host reduction of an `[a, b, c]` array over its last axis by `max` reads, at `(p, r)`, the fold of `max` from the
    initial value over the entries `(p, r, k)`, `k : Fin c`.

  Both folds are over `Finset.univ` of the reduced axis, so a kernel's row maximum and a reference's meet as one term.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Lib

open Idealize.ShloMosaic Idealize.ShloMosaic.ValueIdx

/-- Over result row `r`, the source index with `k` on the reduced second axis is `(r, k)`. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- A row maximum: the fold of `max` from the starting value over the row's entries. -/
theorem multiReduction_max_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ X acc h hφ hacc (ix1 r)
      = (Finset.univ : Finset (Fin b)).fold max (Ideal.ofBits φ acc) (fun k => X (ix2 r k)) := by
  refine (Ideal.multiReduction_maximumf_single X acc h hφ hacc (ix1 r)).trans ?_
  have e : (X ∘ h.lift (ix1 r)) = fun k : Fin b => X (ix2 r k) := funext fun k => congrArg X (lift_row h r k)
  rw [e]
  rfl

/-- A row sum: the sum of the row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ X acc h hφ hacc (ix1 r) = ∑ k : Fin b, X (ix2 r k) := by
  refine (Ideal.multiReduction_add_single X acc h hφ hacc (ix1 r)).trans ?_
  exact Finset.sum_congr rfl fun k _ => congrArg X (lift_row h r k)

/-- Over result index `(p, r)`, the source index with `k` on the reduced last axis is `(p, r, k)`. -/
theorem lift_last3 {a b c : ℕ} (h : (⟨3, ![a, b, c]⟩ : Shape).Reduces [2] ⟨2, ![a, b]⟩) (p : Fin a) (r : Fin b) (k : Fin c) :
    h.lift (ix2 p r) k = ix3 p r k := by
  funext d
  apply Fin.ext
  match d with
  | ⟨0, _⟩ => rfl
  | ⟨1, _⟩ => rfl
  | ⟨2, _⟩ => rfl

/-- A host maximum over the last axis of a rank-3 array: the fold of `max` from the initial value over that axis. -/
theorem hostReduce_max_last3 {a b c : ℕ} {φ : FTy} {u : Shape} (X : FVec Ideal ⟨3, ![a, b, c]⟩ φ) (init : FVec Ideal u φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (r : Fin b) :
    Host.reduce (FloatOps.maximumf (F := Ideal) (φ := φ)) X init h' hu (ix2 p r)
      = (Finset.univ : Finset (Fin c)).fold max (init (Shape.Idx.first hu)) (fun k => X (ix3 p r k)) := by
  refine (Host.reduce_eq_fold_single (FloatOps.maximumf (F := Ideal) (φ := φ)) X init h' h hu (ix2 p r)).trans ?_
  have e : (X ∘ h.lift (ix2 p r)) = fun k : Fin c => X (ix3 p r k) := funext fun k => congrArg X (lift_last3 h p r k)
  rw [e]
  rfl

end Cert.Lib

end
-- ==== Proof.PayNorm.lean ====
/-
  The first program's stored values read at an index, on the extended reals.

  For a block of 256 rows the first program stores
  * the row scale, laid out as a row: at (0, j) it is g[j] / sqrt (Σ_k c[j,k]·c[j,k]), where
    c[j,k] = w[j,k] + 2·(Σ_r b[j,r]·a[r,k]) is the combined weight (a product into a zero accumulator is the plain sum
    over the contracted index; the lane sum of the squares is cast to a column, and the column of quotients is transposed
    to a row);
  * the dense weight unchanged (a change of float format is the identity on the extended reals).
-/
import proofs.«145152_j41712722379292_2_alg».proof.Proof.Gen.KernelIdeal.Skeleton
import proofs.«145152_j41712722379292_2_alg».proof.Proof.Spec
import proofs.«145152_j41712722379292_2_alg».proof.Proof.LibPlainDot
import proofs.«145152_j41712722379292_2_alg».proof.Proof.LibRowCol
import proofs.«145152_j41712722379292_2_alg».proof.Proof.LibKeepdims
import proofs.«145152_j41712722379292_2_alg».proof.Proof.LibRowReduce
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-- The first program's product has the plain dimension numbers. -/
theorem dot_comb_eq : dot_S256x16_S16x4096_S256x4096_1_0_0_1_n_n = DotDims.plain 256 16 4096 := rfl

/-- The combined weight's square at (j, k), as the first program computes it. -/
theorem comb_sq (b : FVec Ideal S256x16 .f32) (a : FVec Ideal S16x4096 .f32) (w : FVec Ideal S256x4096 .f32)
    (j : Fin 256) (k : Fin 4096) :
    (mulf
        (addf w (mulf (broadcast S256x4096 (Scalar.ofBits (F := Ideal) .f32 0x40000000#32))
          (matmul dot_S256x16_S16x4096_S256x4096_1_0_0_1_n_n (some .fp32) b a (constant S256x4096 .f32 0x00000000#32))))
        (addf w (mulf (broadcast S256x4096 (Scalar.ofBits (F := Ideal) .f32 0x40000000#32))
          (matmul dot_S256x16_S16x4096_S256x4096_1_0_0_1_n_n (some .fp32) b a (constant S256x4096 .f32 0x00000000#32))))
      : FVec Ideal S256x4096 .f32) (ix2 j k)
      = (w (ix2 j k) + Cert.Spec.two * ∑ r : Fin 16, b (ix2 j r) * a (ix2 r k))
        * (w (ix2 j k) + Cert.Spec.two * ∑ r : Fin 16, b (ix2 j r) * a (ix2 r k)) := by
  rw [mulf_apply, addf_apply, mulf_apply, broadcast_apply, dot_comb_eq,
    Cert.Lib.plain_matmul_zero_apply 256 16 4096 (some .fp32) b a j k]
  rfl

/-- The row scale at (0, j): g[j] over the norm of row j of the combined weight. -/
theorem norm_scale (b : Vec Ideal S256x16 .f32) (a : Vec Ideal S16x4096 .f32) (w : Vec Ideal S256x4096 .f32)
    (g : Vec Ideal S256x1 .f32) (u : Fin 1) (j : Fin 256) :
    k0_pay1 (F := Ideal) b a w g (ix2 u j)
      = Ideal.div (g (ix2 j (0 : Fin 1)))
          (Ideal.sqrt (∑ k : Fin 4096,
            (w (ix2 j k) + Cert.Spec.two * ∑ r : Fin 16, b (ix2 j r) * a (ix2 r k))
              * (w (ix2 j k) + Cert.Spec.two * ∑ r : Fin 16, b (ix2 j r) * a (ix2 r k)))) := by
  unfold k0_pay1
  rw [Cert.Lib.transpose_a1_1a_apply, divf_apply, shapeCast_self]
  refine congrArg (Ideal.div (g (ix2 j (0 : Fin 1)))) ?_
  show Ideal.sqrt (shapeCast S256x1 _ shapeCasts_S256_S256x1 (ix2 j (0 : Fin 1))) = _
  refine congrArg Ideal.sqrt ?_
  rw [Cert.Lib.shapeCast_a_a1_apply]
  refine (Cert.Lib.multiReduction_add_row _ _ _ _ _ j).trans ?_
  exact Finset.sum_congr rfl fun k _ => comb_sq b a w j k

/-- The dense weight is stored unchanged. -/
theorem norm_copy (w : Vec Ideal S256x4096 .f32) (i : S256x4096.Idx) : k0_pay2 (F := Ideal) w i = w i := rfl

end Cert.KernelIdeal.Pay

end
-- ==== Proof.NormValue.lean ====
/-
  The first kernel region's two output arrays after all 16 points, on the extended reals, as functions of the arrays the
  region finds.

  Point t reads rows 256 t … 256 t + 255 of the dense weight W, of the second low-rank factor B and of the magnitude
  column g, and the whole first low-rank factor A. It writes columns 256 t … 256 t + 255 of the scale row and rows
  256 t … 256 t + 255 of the narrowed copy. Every column of the scale row (every row of the copy) lies in exactly the
  block of the point (column / 256) (resp. row / 256), so after the last point
    scale row at (0, j) = g[j] / sqrt (Σ_k (W[j,k] + 2 (Σ_r B[j,r] A[r,k]))²),
    copy at (i, k)      = W[i,k].
-/
import proofs.«145152_j41712722379292_2_alg».proof.Proof.NormRegion
import proofs.«145152_j41712722379292_2_alg».proof.Proof.PayNorm
import proofs.«145152_j41712722379292_2_alg».proof.Proof.Spec
import Idealize.ShloMosaic.Lib.Pipeline.Value

set_option maxRecDepth 16384

noncomputable section

open scoped BigOperators

namespace Cert.KernelIdeal.NormValue

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The block index of each window at point t, decided once over the 16 points: the three row-blocked inputs and the
    copy are at row block t, the whole factor at block 0, the scale row at column block t. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = t.val ∧ win0_5.index t (1 : Fin 2) = 0 :=
  (by decide +kernel : ∀ t : Fin grid0.N, _)

/-! ## Each input block, read where it lies in its array -/

/-- The dense weight's block at point t is rows 256 t … of the dense weight. -/
theorem blkW (c : Dev nD) (t : Fin cfg0.N) (x : S256x4096.Idx) (k : S4096x4096.Idx)
    (hk0 : (k 0).val = 256 * t.val + (x 0).val) (hk1 : (k 1).val = (x 1).val) :
    (iblk0 (F := Ideal) V c 0 t : Vec Ideal S256x4096 .f32) x = (V c main_arg3 : S4096x4096.Idx → EReal) k := by
  obtain ⟨e0, e1, -⟩ := idx_facts t
  unfold iblk0
  rw [View.read_apply]
  show (V c main_arg3 : S4096x4096.Idx → EReal) _ = V c main_arg3 _
  congr 1
  funext a
  apply Fin.ext
  match a with
  | ⟨0, _⟩ => show win0_0.index t (0 : Fin 2) * 256 + 1 * (x 0).val = (k 0).val; rw [e0, hk0]; omega
  | ⟨1, _⟩ => show win0_0.index t (1 : Fin 2) * 4096 + 1 * (x 1).val = (k 1).val; rw [e1, hk1]; omega

/-- The second low-rank factor's block at point t is rows 256 t … of that factor. -/
theorem blkB (c : Dev nD) (t : Fin cfg0.N) (x : S256x16.Idx) (k : S4096x16.Idx)
    (hk0 : (k 0).val = 256 * t.val + (x 0).val) (hk1 : (k 1).val = (x 1).val) :
    (iblk0 (F := Ideal) V c 1 t : Vec Ideal S256x16 .f32) x = (V c main_arg2 : S4096x16.Idx → EReal) k := by
  obtain ⟨-, -, e2, e3, -⟩ := idx_facts t
  unfold iblk0
  rw [View.read_apply]
  show (V c main_arg2 : S4096x16.Idx → EReal) _ = V c main_arg2 _
  congr 1
  funext a
  apply Fin.ext
  match a with
  | ⟨0, _⟩ => show win0_1.index t (0 : Fin 2) * 256 + 1 * (x 0).val = (k 0).val; rw [e2, hk0]; omega
  | ⟨1, _⟩ => show win0_1.index t (1 : Fin 2) * 16 + 1 * (x 1).val = (k 1).val; rw [e3, hk1]; omega

/-- The first low-rank factor's block at every point is the whole factor. -/
theorem blkA (c : Dev nD) (t : Fin cfg0.N) (x : S16x4096.Idx) :
    (iblk0 (F := Ideal) V c 2 t : Vec Ideal S16x4096 .f32) x = (V c main_arg1 : S16x4096.Idx → EReal) x := by
  obtain ⟨-, -, -, -, e4, e5, -⟩ := idx_facts t
  unfold iblk0
  rw [View.read_apply]
  show (V c main_arg1 : S16x4096.Idx → EReal) _ = V c main_arg1 _
  congr 1
  funext a
  apply Fin.ext
  match a with
  | ⟨0, _⟩ => show win0_2.index t (0 : Fin 2) * 16 + 1 * (x 0).val = (x 0).val; rw [e4]; omega
  | ⟨1, _⟩ => show win0_2.index t (1 : Fin 2) * 4096 + 1 * (x 1).val = (x 1).val; rw [e5]; omega

/-- The magnitude column's block at point t is rows 256 t … of the column. -/
theorem blkG (c : Dev nD) (t : Fin cfg0.N) (x : S256x1.Idx) (k : S4096x1.Idx)
    (hk0 : (k 0).val = 256 * t.val + (x 0).val) (hk1 : (k 1).val = (x 1).val) :
    (iblk0 (F := Ideal) V c 3 t : Vec Ideal S256x1 .f32) x = (V c main_v0 : S4096x1.Idx → EReal) k := by
  obtain ⟨-, -, -, -, -, -, e6, e7, -⟩ := idx_facts t
  unfold iblk0
  rw [View.read_apply]
  show (V c main_v0 : S4096x1.Idx → EReal) _ = V c main_v0 _
  congr 1
  funext a
  apply Fin.ext
  match a with
  | ⟨0, _⟩ => show win0_3.index t (0 : Fin 2) * 256 + 1 * (x 0).val = (k 0).val; rw [e6, hk0]; omega
  | ⟨1, _⟩ => show win0_3.index t (1 : Fin 2) * 1 + 1 * (x 1).val = (k 1).val; rw [e7, hk1]; omega

/-! ## The narrowed copy -/

/-- What point t writes back of the copy is block t of the dense weight. -/
theorem flushed5_eq (c : Dev nD) (t : Fin cfg0.N) :
    (dat0 (F := Ideal) V c).flushed 5 t = ((cfg0.win 5).blk t).view.read (Elt Ideal) (V c main_arg3 : S4096x4096.Idx → EReal) := by
  show (cfg0.win 5).cut (grid0.coords t) ((dat0 (F := Ideal) V c).after 5 t) = _
  rw [after0_5]
  unfold out0_5
  rw [View.canon_unit_zero hz]
  simp only [View.ld_unit_zero (S := S256x4096) hz]
  obtain ⟨-, -, -, -, -, -, -, -, -, -, e10, e11⟩ := idx_facts t
  funext y
  show k0_pay2 (F := Ideal) (iblk0 (F := Ideal) V c 0 t) y = (V c main_arg3 : S4096x4096.Idx → EReal) (((cfg0.win 5).blk t).view.emb y)
  rw [norm_copy]
  refine blkW V c t y _ ?_ ?_
  · show win0_5.index t (0 : Fin 2) * 256 + 1 * (y 0).val = 256 * t.val + (y 0).val
    rw [e10]; omega
  · show win0_5.index t (1 : Fin 2) * 4096 + 1 * (y 1).val = (y 1).val
    rw [e11]; omega

/-- An index of the copy is in point t's block iff each coordinate is in the block's range on its axis. -/
theorem mem_blk5 (t : Fin cfg0.N) (i : S4096x4096.Idx) :
    i ∈ ((cfg0.win 5).blk t).view.set
      ↔ ∀ a : Fin 2, win0_5.index t a * S256x4096.size a ≤ (i a).val ∧ (i a).val < win0_5.index t a * S256x4096.size a + S256x4096.size a := by
  show i ∈ ((View.whole main_v1_1).slice (win0_5.rect t)).set ↔ _
  rw [View.set_slice_whole, Rect.mem_set_unit]
  exact Iff.rfl

/-- Row r of the copy is in the block of point r / 256. -/
theorem cover5 (i : S4096x4096.Idx) :
    ∃ t : Fin cfg0.N, (cfg0.win 5).flush t = true ∧ i ∈ ((cfg0.win 5).blk t).view.set := by
  have hN : cfg0.N = 16 := N_0
  have h0 : (i 0).val < 4096 := (i 0).isLt
  have h1 : (i 1).val < 4096 := (i 1).isLt
  have ht : (i 0).val / 256 < cfg0.N := by rw [hN]; omega
  obtain ⟨-, -, -, -, -, -, -, -, -, -, e10, e11⟩ := idx_facts ⟨(i 0).val / 256, ht⟩
  refine ⟨⟨(i 0).val / 256, ht⟩, flush0_5 _, ?_⟩
  rw [mem_blk5]
  intro a
  match a with
  | ⟨0, _⟩ =>
    show win0_5.index ⟨(i 0).val / 256, ht⟩ (0 : Fin 2) * 256 ≤ (i 0).val
      ∧ (i 0).val < win0_5.index ⟨(i 0).val / 256, ht⟩ (0 : Fin 2) * 256 + 256
    rw [e10]; show (i 0).val / 256 * 256 ≤ (i 0).val ∧ (i 0).val < (i 0).val / 256 * 256 + 256; omega
  | ⟨1, _⟩ =>
    show win0_5.index ⟨(i 0).val / 256, ht⟩ (1 : Fin 2) * 4096 ≤ (i 1).val
      ∧ (i 1).val < win0_5.index ⟨(i 0).val / 256, ht⟩ (1 : Fin 2) * 4096 + 4096
    rw [e11]; omega

/-- THE NARROWED COPY after the region is the dense weight. -/
theorem copy_arr (c : Dev nD) (i : S4096x4096.Idx) :
    (dat0 (F := Ideal) V c).arrAt 5 cfg0.N i = (V c main_arg3 : S4096x4096.Idx → EReal) i :=
  congrFun ((dat0 (F := Ideal) V c).arrAt_eq_of_cover 5 (V c main_arg3 : S4096x4096.Idx → EReal)
    (fun t _ => flushed5_eq V c t) (cover5)) i

/-! ## The scale row -/

/-- The scale block's entry at local column q, from blocks that are rows 256 t … of their arrays (and the whole first
    factor): the scale of output feature j = 256 t + q. -/
theorem scale_point (xw : Vec Ideal S256x4096 .f32) (xb : Vec Ideal S256x16 .f32) (xa : Vec Ideal S16x4096 .f32)
    (xg : Vec Ideal S256x1 .f32)
    (A : S16x4096.Idx → EReal) (B : S4096x16.Idx → EReal) (W : S4096x4096.Idx → EReal) (G : S4096x1.Idx → EReal) (t : ℕ)
    (hw : ∀ (x : S256x4096.Idx) (k : S4096x4096.Idx), (k 0).val = 256 * t + (x 0).val → (k 1).val = (x 1).val → xw x = W k)
    (hb : ∀ (x : S256x16.Idx) (k : S4096x16.Idx), (k 0).val = 256 * t + (x 0).val → (k 1).val = (x 1).val → xb x = B k)
    (ha : ∀ x : S16x4096.Idx, xa x = A x)
    (hg : ∀ (x : S256x1.Idx) (k : S4096x1.Idx), (k 0).val = 256 * t + (x 0).val → (k 1).val = (x 1).val → xg x = G k)
    (y : S1x256.Idx) (j : Fin 4096) (hj : j.val = 256 * t + (y 1).val) :
    k0_pay1 (F := Ideal) xb xa xw xg y = Cert.Spec.scale A B W (fun i => G (ix2 (i 0) (0 : Fin 1))) j := by
  obtain ⟨u, q, rfl⟩ : ∃ (u : Fin 1) (q : Fin 256), y = ix2 u q := ⟨y 0, y 1, eq_ix2 y⟩
  have hq : j.val = 256 * t + q.val := hj
  have eg : xg (ix2 q (0 : Fin 1)) = G (ix2 j (0 : Fin 1)) := hg _ _ hq rfl
  have ew : ∀ k : Fin 4096, xw (ix2 q k) = W (ix2 j k) := fun k => hw _ _ hq rfl
  have eb : ∀ r : Fin 16, xb (ix2 q r) = B (ix2 j r) := fun r => hb _ _ hq rfl
  rw [norm_scale, eg]
  unfold Cert.Spec.scale Cert.Spec.combined
  refine congrArg (Ideal.div (G (ix2 j (0 : Fin 1)))) (congrArg Ideal.sqrt (Finset.sum_congr rfl fun k _ => ?_))
  have es : (∑ r : Fin 16, xb (ix2 q r) * xa (ix2 r k)) = ∑ r : Fin 16, B (ix2 j r) * A (ix2 r k) :=
    Finset.sum_congr rfl fun r _ => by rw [eb r, ha]
  rw [ew k, es]

/-- The scale row as one function of the arrays the region finds. -/
abbrev scaleRow (c : Dev nD) : S1x4096.Idx → EReal := fun i =>
  Cert.Spec.scale (V c main_arg1 : S16x4096.Idx → EReal) (V c main_arg2 : S4096x16.Idx → EReal)
    (V c main_arg3 : S4096x4096.Idx → EReal) (fun i => (V c main_v0 : S4096x1.Idx → EReal) (ix2 (i 0) (0 : Fin 1))) (i 1)

/-- What point t writes back of the scale row is block t of `scaleRow`. -/
theorem flushed4_eq (c : Dev nD) (t : Fin cfg0.N) :
    (dat0 (F := Ideal) V c).flushed 4 t = ((cfg0.win 4).blk t).view.read (Elt Ideal) (scaleRow V c) := by
  show (cfg0.win 4).cut (grid0.coords t) ((dat0 (F := Ideal) V c).after 4 t) = _
  rw [after0_4]
  unfold out0_4
  rw [View.canon_unit_zero hz]
  simp only [View.ld_unit_zero (S := S256x4096) hz, View.ld_unit_zero (S := S256x16) hz,
    View.ld_unit_zero (S := S16x4096) hz, View.ld_unit_zero (S := S256x1) hz]
  obtain ⟨-, -, -, -, -, -, -, -, -, e9, -⟩ := idx_facts t
  funext y
  show k0_pay1 (F := Ideal) (iblk0 (F := Ideal) V c 1 t) (iblk0 (F := Ideal) V c 2 t) (iblk0 (F := Ideal) V c 0 t)
        (iblk0 (F := Ideal) V c 3 t) y
      = Cert.Spec.scale (V c main_arg1 : S16x4096.Idx → EReal) (V c main_arg2 : S4096x16.Idx → EReal)
          (V c main_arg3 : S4096x4096.Idx → EReal) (fun i => (V c main_v0 : S4096x1.Idx → EReal) (ix2 (i 0) (0 : Fin 1)))
          ((((cfg0.win 4).blk t).view.emb y) 1)
  refine scale_point _ _ _ _ _ _ _ _ t.val (fun x k h0 h1 => blkW V c t x k h0 h1) (fun x k h0 h1 => blkB V c t x k h0 h1)
    (fun x => blkA V c t x) (fun x k h0 h1 => blkG V c t x k h0 h1) y _ ?_
  show win0_4.index t (1 : Fin 2) * 256 + 1 * (y 1).val = 256 * t.val + (y 1).val
  rw [e9]; omega

/-- An index of the scale row is in point t's block iff each coordinate is in the block's range on its axis. -/
theorem mem_blk4 (t : Fin cfg0.N) (i : S1x4096.Idx) :
    i ∈ ((cfg0.win 4).blk t).view.set
      ↔ ∀ a : Fin 2, win0_4.index t a * S1x256.size a ≤ (i a).val ∧ (i a).val < win0_4.index t a * S1x256.size a + S1x256.size a := by
  show i ∈ ((View.whole main_v1_0).slice (win0_4.rect t)).set ↔ _
  rw [View.set_slice_whole, Rect.mem_set_unit]
  exact Iff.rfl

/-- Column j of the scale row is in the block of point j / 256. -/
theorem cover4 (i : S1x4096.Idx) :
    ∃ t : Fin cfg0.N, (cfg0.win 4).flush t = true ∧ i ∈ ((cfg0.win 4).blk t).view.set := by
  have hN : cfg0.N = 16 := N_0
  have h0 : (i 0).val < 1 := (i 0).isLt
  have h1 : (i 1).val < 4096 := (i 1).isLt
  have ht : (i 1).val / 256 < cfg0.N := by rw [hN]; omega
  obtain ⟨-, -, -, -, -, -, -, -, e8, e9, -⟩ := idx_facts ⟨(i 1).val / 256, ht⟩
  refine ⟨⟨(i 1).val / 256, ht⟩, flush0_4 _, ?_⟩
  rw [mem_blk4]
  intro a
  match a with
  | ⟨0, _⟩ =>
    show win0_4.index ⟨(i 1).val / 256, ht⟩ (0 : Fin 2) * 1 ≤ (i 0).val
      ∧ (i 0).val < win0_4.index ⟨(i 1).val / 256, ht⟩ (0 : Fin 2) * 1 + 1
    rw [e8]; omega
  | ⟨1, _⟩ =>
    show win0_4.index ⟨(i 1).val / 256, ht⟩ (1 : Fin 2) * 256 ≤ (i 1).val
      ∧ (i 1).val < win0_4.index ⟨(i 1).val / 256, ht⟩ (1 : Fin 2) * 256 + 256
    rw [e9]; show (i 1).val / 256 * 256 ≤ (i 1).val ∧ (i 1).val < (i 1).val / 256 * 256 + 256; omega

/-- THE SCALE ROW after the region: at (0, j), the magnitude of output feature j over the norm of row j of the combined
    weight. -/
theorem scale_arr (c : Dev nD) (u : Fin 1) (j : Fin 4096) :
    (dat0 (F := Ideal) V c).arrAt 4 cfg0.N (ix2 u j)
      = Cert.Spec.scale (V c main_arg1 : S16x4096.Idx → EReal) (V c main_arg2 : S4096x16.Idx → EReal)
          (V c main_arg3 : S4096x4096.Idx → EReal) (fun i => (V c main_v0 : S4096x1.Idx → EReal) (ix2 (i 0) (0 : Fin 1))) j :=
  congrFun ((dat0 (F := Ideal) V c).arrAt_eq_of_cover 4 (scaleRow V c) (fun t _ => flushed4_eq V c t) (cover4)) (ix2 u j)

end Cert.KernelIdeal.NormValue

end
-- ==== Proof.Bridge.lean ====
/-
  The two regions' values composed: the second region's output array is the layer's output.

  The second region's output at (p, q) is
    (s[q] − 1)·(Σ_k x̃[p,k]·w̃[q,k]) + s[q]·(Σ_r (Σ_k x̃[p,k]·a[r,k])·b[q,r])·2
  where s is the scale row and w̃ the copy of the dense weight that the first region left, and x̃ the narrowed tokens.
  The first region left s[q] = g[q] / sqrt (Σ_k (w[q,k] + 2 (Σ_r b[q,r] a[r,k]))²) and w̃ = w; the narrowing is the identity
  on the extended reals, so x̃ = x. Substituting, the two sides agree term for term: no law of arithmetic is used.
-/
import proofs.«145152_j41712722379292_2_alg».proof.Proof.NormValue
import proofs.«145152_j41712722379292_2_alg».proof.Proof.MainRegion
import proofs.«145152_j41712722379292_2_alg».proof.Proof.Spec
import proofs.«145152_j41712722379292_2_alg».proof.Proof.LibKeepdims

set_option maxRecDepth 16384

noncomputable section

open scoped BigOperators

namespace Cert.KernelIdeal.Bridge

open Cert.KernelIdeal Cert.KernelIdeal.Gen Cert.KernelIdeal.Hand
open Idealize.ShloMosaic Idealize.ShloMosaic.TcCoe Idealize.ShloMosaic.ValueIdx
open Idealize.SL.Sem
open Idealize.ShloMosaic.Pipeline (Dat Cfg Window)

/-- The magnitudes cast to a column read, at (j, 0), the magnitude j. -/
theorem magnitude_column (gv : Vec Ideal S4096 .f32) (j : Fin 4096) :
    (shapeCast S4096x1 gv shapeCasts_S4096_S4096x1 : S4096x1.Idx → EReal) (ix2 j (0 : Fin 1)) = gv (ix1 j) :=
  Cert.Lib.shapeCast_a_a1_apply gv shapeCasts_S4096_S4096x1 j (0 : Fin 1)

/-- Narrowing the tokens' float format is the identity on the extended reals. -/
theorem narrowed_tokens (xv : Vec Ideal S8192x4096 .f32) :
    (truncf (F := Ideal) .bf16 xv bitsLt_bf16_f32 : FVec Ideal S8192x4096 .bf16) = xv := rfl

/-- What the second region computes at (i, j) from the scale row s, the tokens xt, the dense weight's copy wc and the
    two low-rank factors a3, b3 it finds. -/
abbrev blockOut (s : S1x4096.Idx → EReal) (xt : S8192x4096.Idx → EReal) (wc : S4096x4096.Idx → EReal)
    (a3 : S16x4096.Idx → EReal) (b3 : S4096x16.Idx → EReal) (i : Fin 8192) (j : Fin 4096) : EReal :=
  (s (ix2 (0 : Fin 1) j) - Cert.Spec.one) * (∑ k : Fin 4096, xt (ix2 i k) * wc (ix2 j k))
    + s (ix2 (0 : Fin 1) j) * (∑ r : Fin 16, (∑ k : Fin 4096, xt (ix2 i k) * a3 (ix2 r k)) * b3 (ix2 j r)) * Cert.Spec.two

/-- The substitution, over plain arrays: an array that is `blockOut` of a scale row holding the scales, the tokens, the
    dense weight and the two factors is the layer's output. -/
theorem out_core (o : S8192x4096.Idx → EReal) (s : S1x4096.Idx → EReal) (xt : S8192x4096.Idx → EReal)
    (wc : S4096x4096.Idx → EReal) (a3 : S16x4096.Idx → EReal) (b3 : S4096x16.Idx → EReal)
    (x : S8192x4096.Idx → EReal) (a : S16x4096.Idx → EReal) (b : S4096x16.Idx → EReal) (w : S4096x4096.Idx → EReal)
    (g : S4096.Idx → EReal)
    (hout : ∀ (i : Fin 8192) (j : Fin 4096), o (ix2 i j) = blockOut s xt wc a3 b3 i j)
    (hs : ∀ j : Fin 4096, s (ix2 (0 : Fin 1) j) = Cert.Spec.scale a b w g j)
    (hx : xt = x) (hw : wc = w) (ha : a3 = a) (hb : b3 = b) : o = Cert.Spec.out x a b w g := by
  subst hx hw ha hb
  funext i
  obtain ⟨p, q, rfl⟩ : ∃ (p : Fin 8192) (q : Fin 4096), i = ix2 p q := ⟨i 0, i 1, eq_ix2 i⟩
  refine (hout p q).trans ?_
  show _ = Cert.Spec.outAt xt a3 b3 wc g p q
  unfold Cert.Spec.outAt Cert.Spec.dense Cert.Spec.low blockOut
  rw [hs q]

/-- THE OUTPUT ARRAY after both regions is the layer's output, given what the second region computes from the arrays it
    finds (`hout`) and that those arrays are the tokens, the first region's two results and the two low-rank factors. -/
theorem out_eq_spec (V1 V3 : (c : Dev nD) → (b : Ref sig .tc) → Buf (Elt Ideal) ((c : Thread nD τ).loc b)) (c : Dev nD)
    (x : S8192x4096.Idx → EReal) (a : S16x4096.Idx → EReal) (b : S4096x16.Idx → EReal) (w : S4096x4096.Idx → EReal)
    (g : S4096.Idx → EReal)
    (hout : ∀ (i : Fin 8192) (j : Fin 4096), (dat1 (F := Ideal) V3 c).arrAt 5 cfg1.N (ix2 i j)
        = blockOut (V3 c main_v1_0) (V3 c main_v2) (V3 c main_v1_1) (V3 c main_arg1) (V3 c main_arg2) i j)
    (h2 : (V3 c main_v2 : S8192x4096.Idx → EReal) = x)
    (h10 : (V3 c main_v1_0 : S1x4096.Idx → EReal) = (dat0 (F := Ideal) V1 c).arrAt 4 cfg0.N)
    (h11 : (V3 c main_v1_1 : S4096x4096.Idx → EReal) = (dat0 (F := Ideal) V1 c).arrAt 5 cfg0.N)
    (h3a : (V3 c main_arg1 : S16x4096.Idx → EReal) = a) (h3b : (V3 c main_arg2 : S4096x16.Idx → EReal) = b)
    (h1a : (V1 c main_arg1 : S16x4096.Idx → EReal) = a) (h1b : (V1 c main_arg2 : S4096x16.Idx → EReal) = b)
    (h1w : (V1 c main_arg3 : S4096x4096.Idx → EReal) = w)
    (h1g : ∀ j : Fin 4096, (V1 c main_v0 : S4096x1.Idx → EReal) (ix2 j (0 : Fin 1)) = g (ix1 j)) :
    (dat1 (F := Ideal) V3 c).arrAt 5 cfg1.N = Cert.Spec.out x a b w g := by
  -- the magnitude column the first region finds is the magnitudes
  have hg : (fun i : S4096.Idx => (V1 c main_v0 : S4096x1.Idx → EReal) (ix2 (i 0) (0 : Fin 1))) = g :=
    funext fun i => (h1g (i 0)).trans (congrArg g (eq_ix1 i).symm)
  -- the scale row the second region finds holds the scales
  have hs : ∀ j : Fin 4096, (V3 c main_v1_0 : S1x4096.Idx → EReal) (ix2 (0 : Fin 1) j) = Cert.Spec.scale a b w g j := fun j => by
    rw [h10, NormValue.scale_arr V1 c (0 : Fin 1) j, h1a, h1b, h1w, hg]
  -- the copy of the dense weight the second region finds is the dense weight
  have hc : (V3 c main_v1_1 : S4096x4096.Idx → EReal) = w :=
    h11.trans ((funext fun i => NormValue.copy_arr V1 c i).trans h1w)
  exact out_core _ (V3 c main_v1_0) (V3 c main_v2) (V3 c main_v1_1) (V3 c main_arg1) (V3 c main_arg2) x a b w g hout hs h2 hc h3a h3b

end Cert.KernelIdeal.Bridge

end
-- ==== Proof.MainValue.lean ====
/-
  The second kernel region's output array after all 256 points, on the extended reals, as a function of the arrays the
  region finds.

  Point t = (i * 4 + j) * 8 + k reads rows 1024 i … of the tokens X and rows 1024 j … of the dense weight W, both at
  columns 512 k …; columns 512 k … of the first low-rank factor A; rows 1024 j … of the second low-rank factor B;
  columns 1024 j … of the scale row s. After point t the two carried accumulators hold the sums over the columns below
  512 (k + 1):
    dense[p, q] = Σ_{c < 512 (k+1)} X[1024 i + p, c] * W[1024 j + q, c],
    low[p, r]   = Σ_{c < 512 (k+1)} X[1024 i + p, c] * A[r, c].
  At k = 7 these are the whole sums and the output block (i, j) is written back; every index of the output lies in the
  block of exactly such a point, so after the last point
    out[i, j] = (s[j] - 1) * (Σ_c X[i,c] W[j,c]) + s[j] * (Σ_r (Σ_c X[i,c] A[r,c]) * B[j,r]) * 2.
-/
import proofs.«145152_j41712722379292_2_alg».proof.Proof.MainRegion
import proofs.«145152_j41712722379292_2_alg».proof.Proof.PayMain
import proofs.«145152_j41712722379292_2_alg».proof.Proof.LibChunkPrefix
import proofs.«145152_j41712722379292_2_alg».proof.Proof.Spec
import proofs.«145152_j41712722379292_2_alg».proof.Proof.Bridge
import Idealize.ShloMosaic.Lib.Pipeline.Value

set_option maxRecDepth 16384

noncomputable section

open scoped BigOperators

namespace Cert.KernelIdeal.MainValue

open Cert.KernelIdeal Cert.KernelIdeal.Gen Cert.KernelIdeal.Hand Cert.KernelIdeal.Pay
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The arrays the region finds, as functions to the extended reals: the tokens X, the dense weight W (as the region finds
    it), the two low-rank factors A and B, the scale row s. -/
abbrev aX (c : Dev nD) : S8192x4096.Idx → EReal := V c main_v2
abbrev aW (c : Dev nD) : S4096x4096.Idx → EReal := V c main_v1_1
abbrev aA (c : Dev nD) : S16x4096.Idx → EReal := V c main_arg1
abbrev aB (c : Dev nD) : S4096x16.Idx → EReal := V c main_arg2
abbrev aS (c : Dev nD) : S1x4096.Idx → EReal := V c main_v1_0

/-- The block index of each window at point t = (i * 4 + j) * 8 + k, decided once over the 256 points:
    i = t / 32, j = t / 8 % 4, k = t % 8. -/
theorem idx_facts : ∀ t : Fin cfg1.N,
    win1_0.index t (0 : Fin 2) = t.val / 32 ∧ win1_0.index t (1 : Fin 2) = t.val % 8
    ∧ win1_1.index t (0 : Fin 2) = t.val / 8 % 4 ∧ win1_1.index t (1 : Fin 2) = t.val % 8
    ∧ win1_2.index t (0 : Fin 2) = 0 ∧ win1_2.index t (1 : Fin 2) = t.val % 8
    ∧ win1_3.index t (0 : Fin 2) = t.val / 8 % 4 ∧ win1_3.index t (1 : Fin 2) = 0
    ∧ win1_4.index t (0 : Fin 2) = 0 ∧ win1_4.index t (1 : Fin 2) = t.val / 8 % 4
    ∧ win1_5.index t (0 : Fin 2) = t.val / 32 ∧ win1_5.index t (1 : Fin 2) = t.val / 8 % 4 :=
  (by decide +kernel : ∀ t : Fin grid1.N, _)

/-! ## Each input block, read where it lies in its array -/

/-- The tokens' block at point t is rows 1024 i …, columns 512 k … of the tokens. -/
theorem blkX (c : Dev nD) (t : Fin cfg1.N) (x : S1024x512.Idx) (k : S8192x4096.Idx)
    (hk0 : (k 0).val = 1024 * (t.val / 32) + (x 0).val) (hk1 : (k 1).val = 512 * (t.val % 8) + (x 1).val) :
    (iblk1 (F := Ideal) V c 0 t : Vec Ideal S1024x512 .bf16) x = aX V c k := by
  obtain ⟨e0, e1, -⟩ := idx_facts t
  unfold iblk1
  rw [View.read_apply]
  show (V c main_v2 : S8192x4096.Idx → EReal) _ = V c main_v2 _
  congr 1
  funext a
  apply Fin.ext
  match a with
  | ⟨0, _⟩ => show win1_0.index t (0 : Fin 2) * 1024 + 1 * (x 0).val = (k 0).val; rw [e0, hk0]; omega
  | ⟨1, _⟩ => show win1_0.index t (1 : Fin 2) * 512 + 1 * (x 1).val = (k 1).val; rw [e1, hk1]; omega

/-- The dense weight's block at point t is rows 1024 j …, columns 512 k … of the dense weight. -/
theorem blkW (c : Dev nD) (t : Fin cfg1.N) (x : S1024x512.Idx) (k : S4096x4096.Idx)
    (hk0 : (k 0).val = 1024 * (t.val / 8 % 4) + (x 0).val) (hk1 : (k 1).val = 512 * (t.val % 8) + (x 1).val) :
    (iblk1 (F := Ideal) V c 1 t : Vec Ideal S1024x512 .bf16) x = aW V c k := by
  obtain ⟨-, -, e2, e3, -⟩ := idx_facts t
  unfold iblk1
  rw [View.read_apply]
  show (V c main_v1_1 : S4096x4096.Idx → EReal) _ = V c main_v1_1 _
  congr 1
  funext a
  apply Fin.ext
  match a with
  | ⟨0, _⟩ => show win1_1.index t (0 : Fin 2) * 1024 + 1 * (x 0).val = (k 0).val; rw [e2, hk0]; omega
  | ⟨1, _⟩ => show win1_1.index t (1 : Fin 2) * 512 + 1 * (x 1).val = (k 1).val; rw [e3, hk1]; omega

/-- The first low-rank factor's block at point t is columns 512 k … of that factor. -/
theorem blkA (c : Dev nD) (t : Fin cfg1.N) (x : S16x512.Idx) (k : S16x4096.Idx)
    (hk0 : (k 0).val = (x 0).val) (hk1 : (k 1).val = 512 * (t.val % 8) + (x 1).val) :
    (iblk1 (F := Ideal) V c 2 t : Vec Ideal S16x512 .f32) x = aA V c k := by
  obtain ⟨-, -, -, -, e4, e5, -⟩ := idx_facts t
  unfold iblk1
  rw [View.read_apply]
  show (V c main_arg1 : S16x4096.Idx → EReal) _ = V c main_arg1 _
  congr 1
  funext a
  apply Fin.ext
  match a with
  | ⟨0, _⟩ => show win1_2.index t (0 : Fin 2) * 16 + 1 * (x 0).val = (k 0).val; rw [e4, hk0]; omega
  | ⟨1, _⟩ => show win1_2.index t (1 : Fin 2) * 512 + 1 * (x 1).val = (k 1).val; rw [e5, hk1]; omega

/-- The second low-rank factor's block at point t is rows 1024 j … of that factor. -/
theorem blkB (c : Dev nD) (t : Fin cfg1.N) (x : S1024x16.Idx) (k : S4096x16.Idx)
    (hk0 : (k 0).val = 1024 * (t.val / 8 % 4) + (x 0).val) (hk1 : (k 1).val = (x 1).val) :
    (iblk1 (F := Ideal) V c 3 t : Vec Ideal S1024x16 .f32) x = aB V c k := by
  obtain ⟨-, -, -, -, -, -, e6, e7, -⟩ := idx_facts t
  unfold iblk1
  rw [View.read_apply]
  show (V c main_arg2 : S4096x16.Idx → EReal) _ = V c main_arg2 _
  congr 1
  funext a
  apply Fin.ext
  match a with
  | ⟨0, _⟩ => show win1_3.index t (0 : Fin 2) * 1024 + 1 * (x 0).val = (k 0).val; rw [e6, hk0]; omega
  | ⟨1, _⟩ => show win1_3.index t (1 : Fin 2) * 16 + 1 * (x 1).val = (k 1).val; rw [e7, hk1]; omega

/-- The scale row's block at point t is columns 1024 j … of the scale row. -/
theorem blkS (c : Dev nD) (t : Fin cfg1.N) (x : S1x1024.Idx) (k : S1x4096.Idx)
    (hk0 : (k 0).val = (x 0).val) (hk1 : (k 1).val = 1024 * (t.val / 8 % 4) + (x 1).val) :
    (iblk1 (F := Ideal) V c 4 t : Vec Ideal S1x1024 .f32) x = aS V c k := by
  obtain ⟨-, -, -, -, -, -, -, -, e8, e9, -⟩ := idx_facts t
  unfold iblk1
  rw [View.read_apply]
  show (V c main_v1_0 : S1x4096.Idx → EReal) _ = V c main_v1_0 _
  congr 1
  funext a
  apply Fin.ext
  match a with
  | ⟨0, _⟩ => show win1_4.index t (0 : Fin 2) * 1 + 1 * (x 0).val = (k 0).val; rw [e8, hk0]; omega
  | ⟨1, _⟩ => show win1_4.index t (1 : Fin 2) * 1024 + 1 * (x 1).val = (k 1).val; rw [e9, hk1]; omega

/-! ## The two accumulators after each point -/

/-- One step of the dense accumulator at point t: from the sum over the columns below 512 k to the sum over the columns
    below 512 (k + 1); the step's 512 products are the block reads. -/
theorem step_big (c : Dev nD) (t : Fin cfg1.N) (s : Vec Ideal S1024x1024 .f32) (p q : Fin 1024) (i : Fin 8192) (j : Fin 4096)
    (hi : i.val = 1024 * (t.val / 32) + p.val) (hj : j.val = 1024 * (t.val / 8 % 4) + q.val)
    (hs : s (ix2 p q) = ∑ k : Fin 4096, if k.val < 512 * (t.val % 8) then
        aX V c (ix2 i k) * aW V c (ix2 j k) else 0) :
    k1_pay4 (F := Ideal) (iblk1 (F := Ideal) V c 0 t) (iblk1 (F := Ideal) V c 1 t) s (ix2 p q)
      = ∑ k : Fin 4096, if k.val < 512 * (t.val % 8 + 1) then
          aX V c (ix2 i k) * aW V c (ix2 j k) else 0 := by
  refine (acc_big _ _ _ p q).trans ?_
  rw [hs]
  have h8 : 512 * (t.val % 8 + 1) ≤ 4096 := by omega
  refine Eq.trans ?_ (Cert.LibChunkPrefix.prefix_step 512 (t.val % 8)
    (fun k : Fin 4096 => aX V c (ix2 i k) * aW V c (ix2 j k)) h8)
  refine congrArg₂ (· + ·) rfl (Finset.sum_congr rfl fun kk _ => ?_)
  have hlt : 512 * (t.val % 8) + kk.val < 4096 := by have := kk.isLt; omega
  exact congrArg₂ (· * ·)
    (blkX V c t (ix2 p kk) (ix2 i ⟨512 * (t.val % 8) + kk.val, hlt⟩) hi rfl)
    (blkW V c t (ix2 q kk) (ix2 j ⟨512 * (t.val % 8) + kk.val, hlt⟩) hj rfl)

/-- One step of the low-rank accumulator at point t. -/
theorem step_small (c : Dev nD) (t : Fin cfg1.N) (s : Vec Ideal S1024x16 .f32) (p : Fin 1024) (r : Fin 16) (i : Fin 8192)
    (hi : i.val = 1024 * (t.val / 32) + p.val)
    (hs : s (ix2 p r) = ∑ k : Fin 4096, if k.val < 512 * (t.val % 8) then
        aX V c (ix2 i k) * aA V c (ix2 r k) else 0) :
    k1_pay5 (F := Ideal) (iblk1 (F := Ideal) V c 0 t) (iblk1 (F := Ideal) V c 2 t) s (ix2 p r)
      = ∑ k : Fin 4096, if k.val < 512 * (t.val % 8 + 1) then
          aX V c (ix2 i k) * aA V c (ix2 r k) else 0 := by
  refine (acc_small _ _ _ p r).trans ?_
  rw [hs]
  have h8 : 512 * (t.val % 8 + 1) ≤ 4096 := by omega
  refine Eq.trans ?_ (Cert.LibChunkPrefix.prefix_step 512 (t.val % 8)
    (fun k : Fin 4096 => aX V c (ix2 i k) * aA V c (ix2 r k)) h8)
  refine congrArg₂ (· + ·) rfl (Finset.sum_congr rfl fun kk _ => ?_)
  have hlt : 512 * (t.val % 8) + kk.val < 4096 := by have := kk.isLt; omega
  exact congrArg₂ (· * ·)
    (blkX V c t (ix2 p kk) (ix2 i ⟨512 * (t.val % 8) + kk.val, hlt⟩) hi rfl)
    (blkA V c t (ix2 r kk) (ix2 r ⟨512 * (t.val % 8) + kk.val, hlt⟩) rfl rfl)

/-- THE INVARIANT: after point n = (i * 4 + j) * 8 + k the dense accumulator holds, at (p, q), the sum over the columns
    below 512 (k + 1) of X[1024 i + p, ·] * W[1024 j + q, ·], and the low-rank accumulator, at (p, r), the sum over the
    same columns of X[1024 i + p, ·] * A[r, ·]. By induction on the point: at k = 0 the step starts from zero, elsewhere
    from what the point before (same i and j, k one less) left. -/
theorem inv (c : Dev nD) (n : ℕ) : ∀ hn : n < cfg1.N,
    (∀ (p q : Fin 1024) (i : Fin 8192) (j : Fin 4096), i.val = 1024 * (n / 32) + p.val → j.val = 1024 * (n / 8 % 4) + q.val →
      (accs (F := Ideal) V c n hn).1 (ix2 p q) = ∑ k : Fin 4096, if k.val < 512 * (n % 8 + 1) then
        aX V c (ix2 i k) * aW V c (ix2 j k) else 0)
    ∧ (∀ (p : Fin 1024) (r : Fin 16) (i : Fin 8192), i.val = 1024 * (n / 32) + p.val →
      (accs (F := Ideal) V c n hn).2 (ix2 p r) = ∑ k : Fin 4096, if k.val < 512 * (n % 8 + 1) then
        aX V c (ix2 i k) * aA V c (ix2 r k) else 0) := by
  induction n using Nat.strong_induction_on with
  | _ n ih =>
    intro hn
    have hN : cfg1.N = 256 := N_1
    have hn' : n < 256 := lt_of_lt_of_eq hn hN
    by_cases h0 : n % 8 = 0
    · have e : accs (F := Ideal) V c n hn = _ := accs_first (F := Ideal) V c ⟨n, hn⟩ h0
      refine ⟨fun p q i j hi hj => ?_, fun p r i hi => ?_⟩
      · rw [e]
        refine step_big V c ⟨n, hn⟩ _ p q i j hi hj ((zero_big _).trans ?_)
        show (0 : EReal) = ∑ k : Fin 4096, if k.val < 512 * (n % 8) then _ else 0
        rw [h0]
        exact (Cert.LibChunkPrefix.prefix_zero 512 _).symm
      · rw [e]
        refine step_small V c ⟨n, hn⟩ _ p r i hi ((zero_small _).trans ?_)
        show (0 : EReal) = ∑ k : Fin 4096, if k.val < 512 * (n % 8) then _ else 0
        rw [h0]
        exact (Cert.LibChunkPrefix.prefix_zero 512 _).symm
    · have e : accs (F := Ideal) V c n hn = _ := accs_next (F := Ideal) V c ⟨n, hn⟩ h0
      obtain ⟨ih1, ih2⟩ := ih (n - 1) (by omega) (by omega)
      have e8 : (n - 1) % 8 + 1 = n % 8 := by omega
      refine ⟨fun p q i j hi hj => ?_, fun p r i hi => ?_⟩
      · rw [e]
        refine step_big V c ⟨n, hn⟩ _ p q i j hi hj ?_
        have h := ih1 p q i j (by omega) (by omega)
        rw [e8] at h
        exact h
      · rw [e]
        refine step_small V c ⟨n, hn⟩ _ p r i hi ?_
        have h := ih2 p r i (by omega)
        rw [e8] at h
        exact h

/-! ## The output array -/

/-- The output as one function of the arrays the region finds. -/
abbrev outArr (c : Dev nD) : S8192x4096.Idx → EReal := fun i =>
  (aS V c (ix2 (0 : Fin 1) (i 1)) - Cert.Spec.one)
      * (∑ k : Fin 4096, aX V c (ix2 (i 0) k) * aW V c (ix2 (i 1) k))
    + aS V c (ix2 (0 : Fin 1) (i 1))
      * (∑ r : Fin 16, (∑ k : Fin 4096, aX V c (ix2 (i 0) k) * aA V c (ix2 r k))
          * aB V c (ix2 (i 1) r))
      * Cert.Spec.two

/-- The output block's entry at a point with k = 7, where both accumulators hold the whole sums: the output at the
    array index the entry lies at. -/
theorem out_point (c : Dev nD) (t : Fin cfg1.N) (h7 : t.val % 8 = 7) (y : S1024x1024.Idx) (k : S8192x4096.Idx)
    (hk0 : (k 0).val = 1024 * (t.val / 32) + (y 0).val) (hk1 : (k 1).val = 1024 * (t.val / 8 % 4) + (y 1).val) :
    k1_pay6 (F := Ideal) (iblk1 (F := Ideal) V c 3 t) (accs (F := Ideal) V c t.val t.isLt).2 (iblk1 (F := Ideal) V c 4 t)
        (accs (F := Ideal) V c t.val t.isLt).1 y
      = outArr V c k := by
  obtain ⟨p, q, rfl⟩ : ∃ (p q : Fin 1024), y = ix2 p q := ⟨y 0, y 1, eq_ix2 y⟩
  have hi : (k 0).val = 1024 * (t.val / 32) + p.val := hk0
  have hj : (k 1).val = 1024 * (t.val / 8 % 4) + q.val := hk1
  obtain ⟨inv1, inv2⟩ := inv V c t.val t.isLt
  have eS : (iblk1 (F := Ideal) V c 4 t : Vec Ideal S1x1024 .f32) (ix2 (0 : Fin 1) q)
      = aS V c (ix2 (0 : Fin 1) (k 1)) := blkS V c t _ _ rfl hj
  have e9 : (accs (F := Ideal) V c t.val t.isLt).1 (ix2 p q)
      = ∑ kk : Fin 4096, aX V c (ix2 (k 0) kk) * aW V c (ix2 (k 1) kk) := by
    refine (inv1 p q (k 0) (k 1) hi hj).trans ?_
    rw [h7]
    exact Cert.LibChunkPrefix.prefix_all 512 8 _ (by norm_num)
  have e10 : ∀ r : Fin 16, (accs (F := Ideal) V c t.val t.isLt).2 (ix2 p r)
      = ∑ kk : Fin 4096, aX V c (ix2 (k 0) kk) * aA V c (ix2 r kk) := by
    intro r
    refine (inv2 p r (k 0) hi).trans ?_
    rw [h7]
    exact Cert.LibChunkPrefix.prefix_all 512 8 _ (by norm_num)
  have eB : ∀ r : Fin 16, (iblk1 (F := Ideal) V c 3 t : Vec Ideal S1024x16 .f32) (ix2 q r)
      = aB V c (ix2 (k 1) r) := fun r => blkB V c t _ _ hj rfl
  have eL : (∑ r : Fin 16, (accs (F := Ideal) V c t.val t.isLt).2 (ix2 p r) * (iblk1 (F := Ideal) V c 3 t : Vec Ideal S1024x16 .f32) (ix2 q r))
      = ∑ r : Fin 16, (∑ kk : Fin 4096, aX V c (ix2 (k 0) kk) * aA V c (ix2 r kk))
          * aB V c (ix2 (k 1) r) :=
    Finset.sum_congr rfl fun r _ => by rw [e10 r, eB r]
  refine (out_block _ _ _ _ p q).trans ?_
  rw [eS, e9, eL]

/-- What a point with k = 7 writes back of the output is its block of `outArr`. -/
theorem flushed_eq (c : Dev nD) (t : Fin cfg1.N) (h7 : t.val % 8 = 7) :
    (dat1 (F := Ideal) V c).flushed 5 t = ((cfg1.win 5).blk t).view.read (Elt Ideal) (outArr V c) := by
  show (cfg1.win 5).cut (grid1.coords t) ((dat1 (F := Ideal) V c).after 5 t) = _
  rw [after1_5]
  obtain ⟨-, -, -, -, -, -, -, -, -, -, e10, e11⟩ := idx_facts t
  funext y
  show k1_pay6 (F := Ideal) (iblk1 (F := Ideal) V c 3 t) (accs (F := Ideal) V c t.val t.isLt).2 (iblk1 (F := Ideal) V c 4 t)
        (accs (F := Ideal) V c t.val t.isLt).1 y
      = outArr V c (((cfg1.win 5).blk t).view.emb y)
  refine out_point V c t h7 y _ ?_ ?_
  · show win1_5.index t (0 : Fin 2) * 1024 + 1 * (y 0).val = 1024 * (t.val / 32) + (y 0).val
    rw [e10]; omega
  · show win1_5.index t (1 : Fin 2) * 1024 + 1 * (y 1).val = 1024 * (t.val / 8 % 4) + (y 1).val
    rw [e11]; omega

/-- An index of the output is in point t's block iff each coordinate is in the block's range on its axis. -/
theorem mem_blk5 (t : Fin cfg1.N) (i : S8192x4096.Idx) :
    i ∈ ((cfg1.win 5).blk t).view.set
      ↔ ∀ a : Fin 2, win1_5.index t a * S1024x1024.size a ≤ (i a).val ∧ (i a).val < win1_5.index t a * S1024x1024.size a + S1024x1024.size a := by
  show i ∈ ((View.whole main_v3).slice (win1_5.rect t)).set ↔ _
  rw [View.set_slice_whole, Rect.mem_set_unit]
  exact Iff.rfl

/-- Entry (i, j) of the output is in the block of the point ((i / 1024) * 4 + j / 1024) * 8 + 7, which is written back. -/
theorem cover5 (i : S8192x4096.Idx) :
    ∃ t : Fin cfg1.N, (cfg1.win 5).flush t = true ∧ i ∈ ((cfg1.win 5).blk t).view.set := by
  have hN : cfg1.N = 256 := N_1
  have h0 : (i 0).val < 8192 := (i 0).isLt
  have h1 : (i 1).val < 4096 := (i 1).isLt
  have ht : ((i 0).val / 1024 * 4 + (i 1).val / 1024) * 8 + 7 < cfg1.N := by rw [hN]; omega
  obtain ⟨-, -, -, -, -, -, -, -, -, -, e10, e11⟩ := idx_facts ⟨((i 0).val / 1024 * 4 + (i 1).val / 1024) * 8 + 7, ht⟩
  have e10' : win1_5.index ⟨((i 0).val / 1024 * 4 + (i 1).val / 1024) * 8 + 7, ht⟩ (0 : Fin 2)
      = (((i 0).val / 1024 * 4 + (i 1).val / 1024) * 8 + 7) / 32 := e10
  have e11' : win1_5.index ⟨((i 0).val / 1024 * 4 + (i 1).val / 1024) * 8 + 7, ht⟩ (1 : Fin 2)
      = (((i 0).val / 1024 * 4 + (i 1).val / 1024) * 8 + 7) / 8 % 4 := e11
  refine ⟨⟨((i 0).val / 1024 * 4 + (i 1).val / 1024) * 8 + 7, ht⟩, (flush1_5 _).mpr ?_, ?_⟩
  · show (((i 0).val / 1024 * 4 + (i 1).val / 1024) * 8 + 7) % 8 = 7
    omega
  rw [mem_blk5]
  intro a
  match a with
  | ⟨0, _⟩ =>
    show win1_5.index ⟨((i 0).val / 1024 * 4 + (i 1).val / 1024) * 8 + 7, ht⟩ (0 : Fin 2) * 1024 ≤ (i 0).val
      ∧ (i 0).val < win1_5.index ⟨((i 0).val / 1024 * 4 + (i 1).val / 1024) * 8 + 7, ht⟩ (0 : Fin 2) * 1024 + 1024
    rw [e10']; omega
  | ⟨1, _⟩ =>
    show win1_5.index ⟨((i 0).val / 1024 * 4 + (i 1).val / 1024) * 8 + 7, ht⟩ (1 : Fin 2) * 1024 ≤ (i 1).val
      ∧ (i 1).val < win1_5.index ⟨((i 0).val / 1024 * 4 + (i 1).val / 1024) * 8 + 7, ht⟩ (1 : Fin 2) * 1024 + 1024
    rw [e11']; omega

/-- THE OUTPUT after the region: at (i, j), (s[j] - 1) * (Σ_c X[i,c] W[j,c]) + s[j] * (Σ_r (Σ_c X[i,c] A[r,c]) * B[j,r]) * 2
    over the arrays the region finds (s the scale row, W the dense weight as the region finds it). -/
theorem out_arr (c : Dev nD) (i : Fin 8192) (j : Fin 4096) :
    (dat1 (F := Ideal) V c).arrAt 5 cfg1.N (ix2 i j)
      = Cert.KernelIdeal.Bridge.blockOut (V c main_v1_0) (V c main_v2) (V c main_v1_1) (V c main_arg1) (V c main_arg2) i j :=
  congrFun ((dat1 (F := Ideal) V c).arrAt_eq_of_cover 5 (outArr V c)
    (fun t hf => flushed_eq V c t ((flush1_5 t).mp hf)) cover5) (ix2 i j)

end Cert.KernelIdeal.MainValue

end
-- ==== Proof.lean ====
/-
  Both programs compute one function of the five argument arrays, on the extended reals.

  The kernel program runs in two regions. The first reads the dense weight w, the two low-rank factors a and b and
  the magnitudes g, and leaves scale[j] = g[j] / sqrt (sum over k of (w[j,k] + 2 * (sum over r of b[j,r] * a[r,k]))^2)
  as a row, beside a copy of w in a shorter float format — the same array on the extended reals. The second runs over
  an 8 x 4 x 8 grid whose last coordinate walks the 4096 input features in eight slices of 512: two accumulators
  gather, slice by slice, dense[i,j] = sum over k of x[i,k] * w[j,k] and low[i,r] = sum over k of x[i,k] * a[r,k];
  a sum of eight consecutive slices of 512 terms is the sum of all 4096 terms, by associativity alone. At the last
  slice the block of the output is (scale[j] - 1) * dense[i,j] + scale[j] * (sum over r of low[i,r] * b[j,r]) * 2.
  The reference computes the same expression with whole-array products and sums. No law beyond associativity and
  commutativity of addition is used, so the finiteness of the inputs is never opened.

  Each frame — the program terminates, faults nowhere and leaves its arguments as launched — is read off the same run
  theorem that gives the result: every buffer that outlives the regions ends at contents computed stretch by stretch
  from the launch memory, and no stretch writes an argument.
-/
import proofs.«145152_j41712722379292_2_alg».proof.Defs
import proofs.«145152_j41712722379292_2_alg».proof.Proof.Gen.Kernel
import proofs.«145152_j41712722379292_2_alg».proof.Proof.Gen.KernelIdeal
import proofs.«145152_j41712722379292_2_alg».proof.Proof.Gen.ReferenceIdeal
import proofs.«145152_j41712722379292_2_alg».proof.Proof.Gen.Pre_finite_inputs
import proofs.«145152_j41712722379292_2_alg».proof.Proof.RunAll
import proofs.«145152_j41712722379292_2_alg».proof.Proof.RunAllK
import proofs.«145152_j41712722379292_2_alg».proof.Proof.RefSpec
import proofs.«145152_j41712722379292_2_alg».proof.Proof.MainValue
import proofs.«145152_j41712722379292_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program terminates and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W4_main_arg0 m ρ c),
      (h c _ (Cert.Kernel.Hand.mem_uc Cert.Kernel.main_arg1 (by decide))).trans (Cert.Kernel.Hand.W4_main_arg1 m ρ c),
      (h c _ (Cert.Kernel.Hand.mem_uc Cert.Kernel.main_arg2 (by decide))).trans (Cert.Kernel.Hand.W4_main_arg2 m ρ c),
      (h c _ (Cert.Kernel.Hand.mem_uc Cert.Kernel.main_arg3 (by decide))).trans (Cert.Kernel.Hand.W4_main_arg3 m ρ c),
      (h c _ (Cert.Kernel.Hand.mem_uc Cert.Kernel.main_arg4 (by decide))).trans (Cert.Kernel.Hand.W4_main_arg4 m ρ c)⟩)
    (Cert.Kernel.Hand.run_all (F := Bits) m ρ)

/-- So does the kernel program read on the extended reals. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W4_main_arg0 m ρ c),
      (h c _ (Cert.KernelIdeal.Hand.mem_uc Cert.KernelIdeal.main_arg1 (by decide))).trans (Cert.KernelIdeal.Hand.W4_main_arg1 m ρ c),
      (h c _ (Cert.KernelIdeal.Hand.mem_uc Cert.KernelIdeal.main_arg2 (by decide))).trans (Cert.KernelIdeal.Hand.W4_main_arg2 m ρ c),
      (h c _ (Cert.KernelIdeal.Hand.mem_uc Cert.KernelIdeal.main_arg3 (by decide))).trans (Cert.KernelIdeal.Hand.W4_main_arg3 m ρ c),
      (h c _ (Cert.KernelIdeal.Hand.mem_uc Cert.KernelIdeal.main_arg4 (by decide))).trans (Cert.KernelIdeal.Hand.W4_main_arg4 m ρ c)⟩)
    (Cert.KernelIdeal.Hand.run_all (F := Ideal) m ρ)

/-- So does the reference: its run with the result dropped. -/
theorem frame_ri : Cert.frame_ReferenceIdeal := fun m ρ _ =>
  (θ_run (Cert.ReferenceIdeal.defs (F := Ideal)) _ _).mono (fun _ h c => (h c).2) (Cert.ReferenceIdeal.RefValue.run_spec m ρ)

/-- The result buffer of the kernel program after its run holds the specification of the launch arrays: the
    second region's output array, computed from the first region's scale row and weight copy, the narrowed
    tokens and the two low-rank factors. -/
theorem kernel_value (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    (Cert.KernelIdeal.Hand.dat1 (F := Ideal) (Cert.KernelIdeal.Hand.V3 m ρ) c).arrAt 5 Cert.KernelIdeal.cfg1.N
      = Cert.Spec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)) :=
  Cert.KernelIdeal.Bridge.out_eq_spec (Cert.KernelIdeal.Hand.V1 m ρ) (Cert.KernelIdeal.Hand.V3 m ρ) c _ _ _ _ _
    (Cert.KernelIdeal.MainValue.out_arr (Cert.KernelIdeal.Hand.V3 m ρ) c)
    ((Cert.KernelIdeal.Hand.V3_v2 m ρ c).trans (Cert.KernelIdeal.Bridge.narrowed_tokens _))
    (Cert.KernelIdeal.Hand.V3_v1_0 m ρ c) (Cert.KernelIdeal.Hand.V3_v1_1 m ρ c)
    (Cert.KernelIdeal.Hand.V3_arg1 m ρ c) (Cert.KernelIdeal.Hand.V3_arg2 m ρ c)
    (Cert.KernelIdeal.Hand.V1_arg1 m ρ c) (Cert.KernelIdeal.Hand.V1_arg2 m ρ c) (Cert.KernelIdeal.Hand.V1_arg3 m ρ c)
    (fun j => by rw [Cert.KernelIdeal.Hand.V1_v0 m ρ c]; exact Cert.KernelIdeal.Bridge.magnitude_column _ j)

theorem algebraic : Cert.algebraic_KernelIdeal_ReferenceIdeal := by
  intro m ρ m' ρ' _ hagree
  refine ⟨fun c => Cert.Spec.out (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4)), ?_, ?_⟩
  · exact (θ_run (Cert.KernelIdeal.defs (F := Ideal)) _ _).mono (fun r h c =>
      ⟨(h c _ (Cert.KernelIdeal.Hand.mem_uc Cert.KernelIdeal.main_v3 (by decide))).trans
          ((Cert.KernelIdeal.Hand.W4_out m ρ c).trans (kernel_value m ρ c)),
        (h c _ (Cert.KernelIdeal.Hand.mem_uc Cert.KernelIdeal.main_arg0 (by decide))).trans (Cert.KernelIdeal.Hand.W4_main_arg0 m ρ c),
        (h c _ (Cert.KernelIdeal.Hand.mem_uc Cert.KernelIdeal.main_arg1 (by decide))).trans (Cert.KernelIdeal.Hand.W4_main_arg1 m ρ c),
        (h c _ (Cert.KernelIdeal.Hand.mem_uc Cert.KernelIdeal.main_arg2 (by decide))).trans (Cert.KernelIdeal.Hand.W4_main_arg2 m ρ c),
        (h c _ (Cert.KernelIdeal.Hand.mem_uc Cert.KernelIdeal.main_arg3 (by decide))).trans (Cert.KernelIdeal.Hand.W4_main_arg3 m ρ c),
        (h c _ (Cert.KernelIdeal.Hand.mem_uc Cert.KernelIdeal.main_arg4 (by decide))).trans (Cert.KernelIdeal.Hand.W4_main_arg4 m ρ c)⟩)
      (Cert.KernelIdeal.Hand.run_all (F := Ideal) m ρ)
  · refine (θ_run (Cert.ReferenceIdeal.defs (F := Ideal)) _ _).mono (fun r h c => ?_) (Cert.ReferenceIdeal.RefValue.run_spec m' ρ')
    obtain ⟨h0, h1, h2, h3, h4⟩ := hagree c
    refine ⟨(h c).1.trans ?_, (h c).2⟩
    rw [h0, h1, h2, h3, h4]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
